-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x64 : Shape := ⟨2, ![8192, 64]⟩
abbrev S64x64 : Shape := ⟨2, ![64, 64]⟩
abbrev S_ : Shape := ⟨0, ![]⟩

class Facts : Prop where
  bcast_S_S8192x64 : S_.BroadcastsInDim S8192x64 (![] : Fin 0 → Fin S8192x64.rank)
  reducesTo_S8192x64_S_d0_1 : S8192x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_

variable [Facts]

def fn {F : FTy → Type} [FloatOps F] (main_arg0 : FVec F S8192x64 .f32) (main_arg1 : FVec F S64x64 .f32) (main_arg2 : FVec F S64x64 .f32) : IVec S_ 1 :=
  let main_v0 : FVec F S8192x64 .f32 := Host.absf main_arg0
  let main_cst : FVec F S_ .f32 := constant S_ .f32 0x7F800000#32
  let main_v1 : FVec F S8192x64 .f32 := broadcastInDim S8192x64 ![] bcast_S_S8192x64 main_cst
  let main_v2 : IVec S8192x64 1 := cmpf .olt main_v0 main_v1
  let main_c : IVec S_ 1 := constantI S_ 1 1#1
  let main_v3 : IVec S_ 1 := (fun x v => Host.reduce IntOp.andi x v reducesTo_S8192x64_S_d0_1 h_S_) main_v2 main_c
  let main_v4 : FVec F S64x64 .f32 := Host.absf main_arg1
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64x64 .f32 := Host.absf main_arg2
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  main_v13
-- ==== Kernel.lean ====
abbrev S8192x64 : Shape := ⟨2, ![8192, 64]⟩
abbrev S64x64 : Shape := ⟨2, ![64, 64]⟩
abbrev S1024x64 : Shape := ⟨2, ![1024, 64]⟩
abbrev S1024x1 : Shape := ⟨2, ![1024, 1]⟩
abbrev S64x1024 : Shape := ⟨2, ![64, 1024]⟩
abbrev S1024x1024 : Shape := ⟨2, ![1024, 1024]⟩
abbrev S1024 : Shape := ⟨1, ![1024]⟩

abbrev nBuf : Space → Nat
  | .hbm => 4
  | .vmem => 5
  | .smem => 0
  | _ => 0

abbrev bufTy : (tb : Table) → Fin (tcTables nBuf tb) → BufTy
  | .hbm, ⟨0, _⟩ => ⟨S8192x64, .f32⟩
  | .hbm, ⟨1, _⟩ => ⟨S64x64, .f32⟩
  | .hbm, ⟨2, _⟩ => ⟨S64x64, .f32⟩
  | .hbm, ⟨3, _⟩ => ⟨S8192x64, .f32⟩
  | .local _ .vmem, ⟨0, _⟩ => ⟨S8192x64, .f32⟩
  | .local _ .vmem, ⟨1, _⟩ => ⟨S64x64, .f32⟩
  | .local _ .vmem, ⟨2, _⟩ => ⟨S64x64, .f32⟩
  | .local _ .vmem, ⟨3, _⟩ => ⟨S1024x64, .f32⟩
  | .local _ .vmem, ⟨4, _⟩ => ⟨S1024x64, .f32⟩
  | _, _ => ⟨S8192x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4

abbrev nD : Nat := 1
abbrev τ : Topo := Topo.v7x

variable {F : FTy → Type} [FloatOps F]

abbrev grid0 : Pipeline.Grid := ⟨1, ![8], ![false]⟩

def k0_mult1 (i : grid0.Coords) : BitVec 32 :=
  let arg0 : BitVec 32 := BitVec.ofNat 32 (i 0).val
  let c1024_i32 : BitVec 32 := 1024#32
  let v0 : BitVec 32 := Scalar.muli arg0 c1024_i32
  v0
def k0_off1 (i : grid0.Coords) : Fin 2 → Nat :=
  let arg0 : BitVec 32 := BitVec.ofNat 32 (i 0).val
  let c1024_i32 : BitVec 32 := 1024#32
  let v0 : BitVec 32 := Scalar.muli arg0 c1024_i32
  let v1 : BitVec 32 := v0
  let v2 : Index := Scalar.indexCast v1
  let c0 : Index := 0#32
  ![v2.toNat, 0]
def k0_mult2 : BitVec 32 :=
  let c0_i32 : BitVec 32 := 0#32
  let c1024_i32_5 : BitVec 32 := 1024#32
  let v11 : BitVec 32 := Scalar.muli c0_i32 c1024_i32_5
  v11
def k0_off2 (c0_i32 : BitVec 32) : Fin 2 → Nat :=
  let c1024_i32_5 : BitVec 32 := 1024#32
  let v11 : BitVec 32 := Scalar.muli c0_i32 c1024_i32_5
  let v12 : BitVec 32 := v11
  let v13 : Index := Scalar.indexCast v12
  let c0_6 : Index := 0#32
  ![v13.toNat, 0]
def k0_mult3 : BitVec 32 :=
  let c1_i32 : BitVec 32 := 1#32
  let c1024_i32_15 : BitVec 32 := 1024#32
  let v43 : BitVec 32 := Scalar.muli c1_i32 c1024_i32_15
  v43
def k0_mult4 : BitVec 32 :=
  let c2_i32 : BitVec 32 := 2#32
  let c1024_i32_25 : BitVec 32 := 1024#32
  let v75 : BitVec 32 := Scalar.muli c2_i32 c1024_i32_25
  v75
def k0_mult5 : BitVec 32 :=
  let c3_i32 : BitVec 32 := 3#32
  let c1024_i32_35 : BitVec 32 := 1024#32
  let v107 : BitVec 32 := Scalar.muli c3_i32 c1024_i32_35
  v107
def k0_mult6 : BitVec 32 :=
  let c4_i32 : BitVec 32 := 4#32
  let c1024_i32_45 : BitVec 32 := 1024#32
  let v139 : BitVec 32 := Scalar.muli c4_i32 c1024_i32_45
  v139
def k0_mult7 : BitVec 32 :=
  let c5_i32 : BitVec 32 := 5#32
  let c1024_i32_55 : BitVec 32 := 1024#32
  let v171 : BitVec 32 := Scalar.muli c5_i32 c1024_i32_55
  v171
def k0_mult8 : BitVec 32 :=
  let c6_i32 : BitVec 32 := 6#32
  let c1024_i32_65 : BitVec 32 := 1024#32
  let v203 : BitVec 32 := Scalar.muli c6_i32 c1024_i32_65
  v203
def k0_mult9 : BitVec 32 :=
  let c7_i32 : BitVec 32 := 7#32
  let c1024_i32_75 : BitVec 32 := 1024#32
  let v235 : BitVec 32 := Scalar.muli c7_i32 c1024_i32_75
  v235
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8192x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  h_S1024x64 : 0 < S1024x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  transposes_S1024x64_p1_0_S64x1024 : S1024x64.Transposes [1, 0] S64x1024
  reduces_S1024x1024_S1024 : S1024x1024.Reduces [1] S1024
  shapeCasts_S1024_S1024x1 : S1024.ShapeCasts S1024x1
  broadcasts_S1024x1_S1024x1024 : S1024x1.Broadcasts S1024x1024
  broadcasts_S1024x1_S1024x64 : S1024x1.Broadcasts S1024x64
  inb_S1024x64_S1024x64_0_0 : ∀ a, (![0, 0] : Fin 2 → Nat) a + S1024x64.size a ≤ S1024x64.size a
  dot_S1024x64_S64x64_S1024x64_1_0_0_1_n_n_wf : DotDims.WF S1024x64 S64x64 S1024x64 [1] [0] [0] [1] [] []
  dot_S1024x64_S64x1024_S1024x1024_1_0_0_1_n_n_wf : DotDims.WF S1024x64 S64x1024 S1024x1024 [1] [0] [0] [1] [] []
  dot_S1024x1024_S1024x64_S1024x64_1_0_0_1_n_n_wf : DotDims.WF S1024x1024 S1024x64 S1024x64 [1] [0] [0] [1] [] []
  hrank0 : 0 < grid0.rank
  k0_mult1_dvd : ∀ i : grid0.Coords, 1024 ∣ (k0_mult1 i).toNat
  k0_off1_inb : ∀ i : grid0.Coords, ∀ a, (k0_off1 i) a + S1024x64.size a ≤ S8192x64.size a
  k0_mult2_dvd : 1024 ∣ k0_mult2.toNat
  k0_off2_inb : ∀ (r : Fin 8), ∀ a, (k0_off2 (BitVec.ofNat 32 r.val)) a + S1024x64.size a ≤ S8192x64.size a
  k0_mult3_dvd : 1024 ∣ k0_mult3.toNat
  k0_mult4_dvd : 1024 ∣ k0_mult4.toNat
  k0_mult5_dvd : 1024 ∣ k0_mult5.toNat
  k0_mult6_dvd : 1024 ∣ k0_mult6.toNat
  k0_mult7_dvd : 1024 ∣ k0_mult7.toNat
  k0_mult8_dvd : 1024 ∣ k0_mult8.toNat
  k0_mult9_dvd : 1024 ∣ k0_mult9.toNat
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S8192x64.size a ≤ S8192x64.size a
  hwx0_0 : ∀ i : grid0.Coords, EltTy.bits .f32 = 32 ∨ (Rect.block (s := S8192x64) S8192x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x64.size a ≤ S8192x64.size a
  hwx0_3 : ∀ i : grid0.Coords, EltTy.bits .f32 = 32 ∨ (Rect.block (s := S8192x64) S1024x64.size (cc0_transform_3 i) (hinb0_3 i)).WholeWords (EltTy.packing .f32)

variable [Facts₀]

def dot_S1024x64_S64x64_S1024x64_1_0_0_1_n_n : DotDims S1024x64 S64x64 S1024x64 where
  lhsContracting := [1]
  rhsContracting := [0]
  lhsNonContracting := [0]
  rhsNonContracting := [1]
  lhsBatch := []
  rhsBatch := []
  wf := dot_S1024x64_S64x64_S1024x64_1_0_0_1_n_n_wf
def dot_S1024x64_S64x1024_S1024x1024_1_0_0_1_n_n : DotDims S1024x64 S64x1024 S1024x1024 where
  lhsContracting := [1]
  rhsContracting := [0]
  lhsNonContracting := [0]
  rhsNonContracting := [1]
  lhsBatch := []
  rhsBatch := []
  wf := dot_S1024x64_S64x1024_S1024x1024_1_0_0_1_n_n_wf
def dot_S1024x1024_S1024x64_S1024x64_1_0_0_1_n_n : DotDims S1024x1024 S1024x64 S1024x64 where
  lhsContracting := [1]
  rhsContracting := [0]
  lhsNonContracting := [0]
  rhsNonContracting := [1]
  lhsBatch := []
  rhsBatch := []
  wf := dot_S1024x1024_S1024x64_S1024x64_1_0_0_1_n_n_wf

abbrev win0_0 : Pipeline.Window sig grid0 :=
  Pipeline.Window.ofSpec (Memref.whole main_arg0) S8192x64.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1024x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8192x64 : Shape := ⟨2, ![8192, 64]⟩
abbrev S64x64 : Shape := ⟨2, ![64, 64]⟩
abbrev S_ : Shape := ⟨0, ![]⟩
abbrev S64x8192 : Shape := ⟨2, ![64, 8192]⟩
abbrev S8192x8192 : Shape := ⟨2, ![8192, 8192]⟩
abbrev S8192 : Shape := ⟨1, ![8192]⟩
abbrev S8192x1 : Shape := ⟨2, ![8192, 1]⟩

abbrev nBuf : Space → Nat
  | .hbm => 28
  | .vmem => 0
  | .smem => 0
  | _ => 0

abbrev bufTy : (tb : Table) → Fin (tcTables nBuf tb) → BufTy
  | .hbm, ⟨0, _⟩ => ⟨S8192x64, .f32⟩
  | .hbm, ⟨1, _⟩ => ⟨S64x64, .f32⟩
  | .hbm, ⟨2, _⟩ => ⟨S64x64, .f32⟩
  | .hbm, ⟨3, _⟩ => ⟨S8192x64, .f32⟩
  | .hbm, ⟨4, _⟩ => ⟨S8192x64, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S64x8192, .f32⟩
  | .hbm, ⟨10, _⟩ => ⟨S8192x8192, .f32⟩
  | .hbm, ⟨11, _⟩ => ⟨S8192x8192, .f32⟩
  | .hbm, ⟨12, _⟩ => ⟨S8192x8192, .f32⟩
  | .hbm, ⟨13, _⟩ => ⟨S_, .f32⟩
  | .hbm, ⟨14, _⟩ => ⟨S8192, .f32⟩
  | .hbm, ⟨15, _⟩ => ⟨S_, .f32⟩
  | .hbm, ⟨16, _⟩ => ⟨S8192, .f32⟩
  | .hbm, ⟨17, _⟩ => ⟨S8192, .f32⟩
  | .hbm, ⟨18, _⟩ => ⟨S8192x1, .f32⟩
  | .hbm, ⟨19, _⟩ => ⟨S8192x8192, .f32⟩
  | .hbm, ⟨20, _⟩ => ⟨S8192x8192, .f32⟩
  | .hbm, ⟨21, _⟩ => ⟨S8192x8192, .f32⟩
  | .hbm, ⟨22, _⟩ => ⟨S_, .f32⟩
  | .hbm, ⟨23, _⟩ => ⟨S8192, .f32⟩
  | .hbm, ⟨24, _⟩ => ⟨S8192x1, .f32⟩
  | .hbm, ⟨25, _⟩ => ⟨S8192x8192, .f32⟩
  | .hbm, ⟨26, _⟩ => ⟨S8192x8192, .f32⟩
  | .hbm, ⟨27, _⟩ => ⟨S8192x64, .f32⟩
  | _, _ => ⟨S8192x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_3 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩

abbrev nD : Nat := 1
abbrev τ : Topo := Topo.v7x

variable {F : FTy → Type} [FloatOps F]

class Facts₀ : Prop where
  transposes_S8192x64_S64x8192_1_0 : S8192x64.Transposes [1, 0] S64x8192
  bcast_S_S8192x8192 : S_.BroadcastsInDim S8192x8192 (![] : Fin 0 → Fin S8192x8192.rank)
  reducesTo_S8192x8192_S8192_d1 : S8192x8192.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x8192_0_1 : S8192x1.BroadcastsInDim S8192x8192 (![0, 1] : Fin 2 → Fin S8192x8192.rank)
  dot_S8192x64_S64x64_S8192x64_1_0_0_1_n_n_wf : DotDims.WF S8192x64 S64x64 S8192x64 [1] [0] [0] [1] [] []
  dot_S8192x64_S64x8192_S8192x8192_1_0_0_1_n_n_wf : DotDims.WF S8192x64 S64x8192 S8192x8192 [1] [0] [0] [1] [] []
  dot_S8192x8192_S8192x64_S8192x64_1_0_0_1_n_n_wf : DotDims.WF S8192x8192 S8192x64 S8192x64 [1] [0] [0] [1] [] []

variable [Facts₀]

def dot_S8192x64_S64x64_S8192x64_1_0_0_1_n_n : DotDims S8192x64 S64x64 S8192x64 where
  lhsContracting := [1]
  rhsContracting := [0]
  lhsNonContracting := [0]
  rhsNonContracting := [1]
  lhsBatch := []
  rhsBatch := []
  wf := dot_S8192x64_S64x64_S8192x64_1_0_0_1_n_n_wf
def dot_S8192x64_S64x8192_S8192x8192_1_0_0_1_n_n : DotDims S8192x64 S64x8192 S8192x8192 where
  lhsContracting := [1]
  rhsContracting := [0]
  lhsNonContracting := [0]
  rhsNonContracting := [1]
  lhsBatch := []
  rhsBatch := []
  wf := dot_S8192x64_S64x8192_S8192x8192_1_0_0_1_n_n_wf
def dot_S8192x8192_S8192x64_S8192x64_1_0_0_1_n_n : DotDims S8192x8192 S8192x64 S8192x64 where
  lhsContracting := [1]
  rhsContracting := [0]
  lhsNonContracting := [0]
  rhsNonContracting := [1]
  lhsBatch := []
  rhsBatch := []
  wf := dot_S8192x8192_S8192x64_S8192x64_1_0_0_1_n_n_wf

class Facts : Prop extends Facts₀ where

variable [Facts]
-- ==== Proof.KernelTrip.lean ====
/-
  The kernel's body as eight applications of one update.

  For one tile of 1024 query rows the body keeps, per row, a running maximum `m`, a running normaliser `l` and a
  running weighted sum `acc` (one entry per output column), and visits the 8192 key rows in eight tiles of 1024.  One
  visit computes the tile's scores `s = (q · kᵀ) / 8`, the new maximum `m' = max m (row maximum of s)`, the factor
  `a = exp (m - m')` by which the old sums are rescaled, the weights `p = exp (s - m')`, and then
  `l' = a · l + row sum of p`, `acc' = a · acc + p · (the tile's rows of x)`.  After the eighth visit the block written
  back is `acc / l`.  This module names that update (`step`), the start (`init`) and the end (`finish`), and shows
  that the block the body stores is exactly `finish` of the eight-fold `step` over the eight row tiles of `x`.
-/
import proofs.«161730_j65481071402025_2_alg».proof.Proof.Gen.KernelIdeal.Value
import Idealize.ShloMosaic.Lib.Tactic

set_option synthInstance.maxSize 4096
set_option maxRecDepth 65536

noncomputable section

open Idealize.ShloMosaic Idealize.ShloMosaic.TcCoe Idealize.SL.Sem Idealize.ShloMosaic.Tactic

namespace Cert.KernelIdeal.Trip

open Cert.KernelIdeal Cert.KernelIdeal.Gen

variable {F : FTy → Type} [FloatOps F]

/-- A tile of 1024 rows of `x` times a 64 × 64 weight matrix. -/
def proj (xb : FVec F S1024x64 .f32) (w : FVec F S64x64 .f32) : FVec F S1024x64 .f32 :=
  matmul dot_S1024x64_S64x64_S1024x64_1_0_0_1_n_n none (truncf .bf16 xb bitsLt_bf16_f32) (truncf .bf16 w bitsLt_bf16_f32)
    (constant S1024x64 .f32 0x00000000#32)

/-- The scores of 1024 queries against 1024 keys: the inner products, times one eighth. -/
def scores (q k : FVec F S1024x64 .f32) : FVec F S1024x1024 .f32 :=
  mulf (matmul dot_S1024x64_S64x1024_S1024x1024_1_0_0_1_n_n none (truncf .bf16 q bitsLt_bf16_f32)
      (transpose S64x1024 [1, 0] (truncf .bf16 k bitsLt_bf16_f32) transposes_S1024x64_p1_0_S64x1024)
      (constant S1024x1024 .f32 0x00000000#32))
    (broadcast S1024x1024 (Scalar.ofBits .f32 0x3E000000#32))

/-- The running maximum after a tile: the old one against the tile's row maxima. -/
def newMax (m : FVec F S1024x1 .f32) (s : FVec F S1024x1024 .f32) : FVec F S1024x1 .f32 :=
  maximumf m (shapeCast S1024x1 (multiReduction .maximumf [1] S1024 s 0xFF800000#32 reduces_S1024x1024_S1024 (.inl rfl) rfl)
    shapeCasts_S1024_S1024x1)

/-- The factor that moves sums taken against the old maximum to the new one. -/
def rescale (m m' : FVec F S1024x1 .f32) : FVec F S1024x1 .f32 := exp (subf m m')

/-- The tile's weights against the new maximum. -/
def weights (s : FVec F S1024x1024 .f32) (m' : FVec F S1024x1 .f32) : FVec F S1024x1024 .f32 :=
  exp (subf s (broadcastTo S1024x1024 m' broadcasts_S1024x1_S1024x1024))

/-- The running normaliser after a tile. -/
def newNorm (a l : FVec F S1024x1 .f32) (p : FVec F S1024x1024 .f32) : FVec F S1024x1 .f32 :=
  addf (mulf a l) (shapeCast S1024x1 (multiReduction .add [1] S1024 p 0x00000000#32 reduces_S1024x1024_S1024 (.inl rfl) rfl)
    shapeCasts_S1024_S1024x1)

/-- The running weighted sum of the rows of `x` after a tile. -/
def newAcc (a : FVec F S1024x1 .f32) (acc : FVec F S1024x64 .f32) (p : FVec F S1024x1024 .f32)
    (xk : FVec F S1024x64 .f32) : FVec F S1024x64 .f32 :=
  addf (mulf (broadcastTo S1024x64 a broadcasts_S1024x1_S1024x64) acc)
    (matmul dot_S1024x1024_S1024x64_S1024x64_1_0_0_1_n_n none (truncf .bf16 p bitsLt_bf16_f32) (truncf .bf16 xk bitsLt_bf16_f32)
      (constant S1024x64 .f32 0x00000000#32))

/-- What the body carries from one tile of keys to the next. -/
structure St (F : FTy → Type) [FloatOps F] where
  m : FVec F S1024x1 .f32
  l : FVec F S1024x1 .f32
  acc : FVec F S1024x64 .f32

/-- Before the first tile: maximum `-∞`, both sums zero. -/
def init : St F :=
  ⟨broadcast S1024x1 (Scalar.ofBits .f32 0xFF800000#32), broadcast S1024x1 (Scalar.ofBits .f32 0x00000000#32),
    broadcast S1024x64 (Scalar.ofBits .f32 0x00000000#32)⟩

/-- One tile of keys: queries `q`, key weights `ent`, the tile's rows `xk` of `x`. -/
def step (q : FVec F S1024x64 .f32) (ent : FVec F S64x64 .f32) (σ : St F) (xk : FVec F S1024x64 .f32) : St F :=
  ⟨newMax σ.m (scores q (proj xk ent)),
    newNorm (rescale σ.m (newMax σ.m (scores q (proj xk ent)))) σ.l
      (weights (scores q (proj xk ent)) (newMax σ.m (scores q (proj xk ent)))),
    newAcc (rescale σ.m (newMax σ.m (scores q (proj xk ent)))) σ.acc
      (weights (scores q (proj xk ent)) (newMax σ.m (scores q (proj xk ent)))) xk⟩

/-- The block written back: the weighted sum over the normaliser. -/
def finish (σ : St F) : FVec F S1024x64 .f32 := divf σ.acc (broadcastTo S1024x64 σ.l broadcasts_S1024x1_S1024x64)

/-- The whole body on a tile `xq` of query rows and a list of key tiles. -/
def flash (xq : FVec F S1024x64 .f32) (rot ent : FVec F S64x64 .f32) (tiles : List (FVec F S1024x64 .f32)) :
    FVec F S1024x64 .f32 :=
  finish (tiles.foldl (step (proj xq rot) ent) init)

/-- Rows `o … o + 1023` of `x`, as the body loads them. -/
def rowsAt (x0 : Vec F S8192x64 .f32) (off : Fin 2 → Nat) (h : ∀ a, off a + S1024x64.size a ≤ S8192x64.size a) :
    FVec F S1024x64 .f32 :=
  View.ld x0 (Rect.unit (s := S8192x64) off S1024x64.size h)

theorem hz : (![0, 0] : Fin 2 → Nat) = fun _ => 0 := funext fun a => by fin_cases a <;> rfl

/-- The block the body leaves in the output's staging buffer is `flash` of the query tile at the grid point's rows
    and the eight key tiles in order. -/
theorem out_eq_flash (c : Dev nD) (i : grid0.Coords) (a1 : Memref sig .tc .vmem S8192x64 .f32) (h1 : a1.IsWhole)
    (a2 : Memref sig .tc .vmem S64x64 .f32) (h2 : a2.IsWhole) (a3 : Memref sig .tc .vmem S64x64 .f32) (h3 : a3.IsWhole)
    (a4 : Memref sig .tc .vmem S1024x64 .f32) (h4 : a4.IsWhole)
    (x0 : Vec F S8192x64 .f32) (x1 x2 : Vec F S64x64 .f32) :
    out0_A_3 c i a1 h1 a2 h2 a3 h3 a4 h4 x0 x1 x2
      = flash (rowsAt x0 (k0_off1 i) (k0_off1_inb i)) x1 x2
          [rowsAt x0 (k0_off2 0#32) (k0_off2_inb 0), rowsAt x0 (k0_off2 1#32) (k0_off2_inb 1),
           rowsAt x0 (k0_off2 2#32) (k0_off2_inb 2), rowsAt x0 (k0_off2 3#32) (k0_off2_inb 3),
           rowsAt x0 (k0_off2 4#32) (k0_off2_inb 4), rowsAt x0 (k0_off2 5#32) (k0_off2_inb 5),
           rowsAt x0 (k0_off2 6#32) (k0_off2_inb 6), rowsAt x0 (k0_off2 7#32) (k0_off2_inb 7)] := by
  unfold out0_A_3
  rw [View.read_writes_eq_canon _ _ _ (cover0_A_3 c i a1 h1 a2 h2 a3 h3 a4 h4 x0 x1 x2)]
  unfold kernelRun0_A
  dsimp only
  sl_unfold_words
  rw [View.canon_unit_zero hz]
  simp only [View.readAt_eq_ld, h1.read_unread, h2.read_unread, h3.read_unread, View.ld_unit_zero (S := S64x64) hz]
  rfl

end Cert.KernelIdeal.Trip

end
-- ==== Proof.OnlineSoftmax.lean ====
/-
  The softmax-weighted average of finitely many reals, taken one tile at a time.

  Given scores `ℓ j` and values `x j`, the weighted average is `(∑ j, e^{ℓ j} · x j) / ∑ j, e^{ℓ j}`.  It can be
  computed against any shift `μ` of the scores — `e^{ℓ j - μ} = e^{-μ} · e^{ℓ j}`, and the factor `e^{-μ}` cancels between
  numerator and denominator — and the shift may change from tile to tile as long as the sums already taken are
  rescaled: sums taken against `μ` become sums against `μ'` after multiplication by `e^{μ - μ'}`.

  `rowStep` is one tile's update of a state `(m, l, acc)` on the extended reals: the new level is the old one against
  the tile's largest score, the old sums are rescaled to it, and the tile's terms are added.  A state is `atLevel μ S A`
  when its level is the real `μ` and its two sums are `e^{-μ} · S` and `e^{-μ} · A` for the unnormalised sums `S`, `A`;
  one update keeps that form and adds the tile's terms to `S` and `A` (`rowStep_atLevel`), whatever the new level is.
  From the start `(-∞, 0, 0)` the first update reaches that form, because `e^{-∞} = 0` wipes the (zero) old sums
  (`rowStep_bot`).  So after any non-empty list of tiles `acc / l = A / S` (`online_avg`).  The reference's form —
  each weight normalised first, then the weighted sum — is the same number (`softmax_avg`).  Every distributive step
  is taken in the reals; only finished real numbers are injected into the extended reals.
-/
import Idealize.ShloMosaic.PureOps.Ideal

noncomputable section

namespace Cert.OnlineSoftmax

open Idealize.ShloMosaic

/-- The injection of the reals commutes with finite sums. -/
theorem coe_sum {ι : Type*} (A : Finset ι) (f : ι → ℝ) : ((∑ q ∈ A, f q : ℝ) : EReal) = ∑ q ∈ A, (f q : EReal) := by
  classical
  induction A using Finset.induction_on with
  | empty => simp
  | insert a A ha ih => rw [Finset.sum_insert ha, Finset.sum_insert ha, EReal.coe_add, ih]

/-- The exponential of a difference of two reals, taken in the extended reals, is the real exponential. -/
theorem exp_sub_coe (a b : ℝ) : Ideal.exp ((a : EReal) - (b : EReal)) = ((Real.exp (a - b) : ℝ) : EReal) := rfl

theorem max_coe (a b : ℝ) : max (a : EReal) (b : EReal) = ((max a b : ℝ) : EReal) :=
  (EReal.coe_strictMono.monotone.map_max).symm

variable {T : ℕ}

/-- The largest of finitely many reals, folded from `-∞`, is a real as soon as there is one of them. -/
theorem fold_max_real (hT : 0 < T) (s : Fin T → ℝ) :
    ∃ μ : ℝ, (Finset.univ : Finset (Fin T)).fold max (⊥ : EReal) (fun q => (s q : EReal)) = (μ : EReal) := by
  have key : ∀ A : Finset (Fin T), A.Nonempty →
      ∃ μ : ℝ, A.fold max (⊥ : EReal) (fun q => (s q : EReal)) = (μ : EReal) := by
    intro A
    induction A using Finset.induction_on with
    | empty => intro h; exact absurd h Finset.not_nonempty_empty
    | insert a A ha ih =>
      intro _
      rw [Finset.fold_insert ha]
      rcases A.eq_empty_or_nonempty with rfl | hne
      · exact ⟨s a, by rw [Finset.fold_empty, max_bot_right]⟩
      · obtain ⟨μ, hμ⟩ := ih hne
        exact ⟨max (s a) μ, by rw [hμ, max_coe]⟩
  exact key _ ⟨⟨0, hT⟩, Finset.mem_univ _⟩

/-- One tile's update of a row's state `(m, l, acc)`: scores `s`, values `v`. -/
def rowStep (s v : Fin T → EReal) (σ : EReal × EReal × EReal) : EReal × EReal × EReal :=
  (max σ.1 (Finset.univ.fold max ⊥ s),
    Ideal.exp (σ.1 - max σ.1 (Finset.univ.fold max ⊥ s)) * σ.2.1
      + ∑ q, Ideal.exp (s q - max σ.1 (Finset.univ.fold max ⊥ s)),
    Ideal.exp (σ.1 - max σ.1 (Finset.univ.fold max ⊥ s)) * σ.2.2
      + ∑ q, Ideal.exp (s q - max σ.1 (Finset.univ.fold max ⊥ s)) * v q)

/-- The state at the real level `μ` whose sums, brought back to level zero, are `S` and `A`. -/
def atLevel (μ S A : ℝ) : EReal × EReal × EReal :=
  ((μ : EReal), ((Real.exp (-μ) * S : ℝ) : EReal), ((Real.exp (-μ) * A : ℝ) : EReal))

theorem exp_shift (a μ : ℝ) : Real.exp (a - μ) = Real.exp (-μ) * Real.exp a := by
  rw [← Real.exp_add]; congr 1; ring

/-- An update of a state at a real level stays at a real level and adds the tile's terms to the unnormalised sums. -/
theorem rowStep_atLevel (hT : 0 < T) (s v : Fin T → ℝ) (μ S A : ℝ) :
    ∃ μ' : ℝ, rowStep (fun q => (s q : EReal)) (fun q => (v q : EReal)) (atLevel μ S A)
      = atLevel μ' (S + ∑ q, Real.exp (s q)) (A + ∑ q, Real.exp (s q) * v q) := by
  obtain ⟨mc, hmc⟩ := fold_max_real hT s
  refine ⟨max μ mc, ?_⟩
  have e1 : Real.exp (μ - max μ mc) * Real.exp (-μ) = Real.exp (-(max μ mc)) := by
    rw [← Real.exp_add]; congr 1; ring
  have hs : ∑ q, Real.exp (s q - max μ mc) = Real.exp (-(max μ mc)) * ∑ q, Real.exp (s q) := by
    rw [Finset.mul_sum]; exact Finset.sum_congr rfl fun q _ => exp_shift _ _
  have hv : ∑ q, Real.exp (s q - max μ mc) * v q = Real.exp (-(max μ mc)) * ∑ q, Real.exp (s q) * v q := by
    rw [Finset.mul_sum]; exact Finset.sum_congr rfl fun q _ => by rw [exp_shift, mul_assoc]
  unfold rowStep atLevel
  simp only [hmc, max_coe, exp_sub_coe, ← EReal.coe_mul]
  refine Prod.ext rfl (Prod.ext ?_ ?_)
  · show ((Real.exp (μ - max μ mc) * (Real.exp (-μ) * S) : ℝ) : EReal) + ∑ q, ((Real.exp (s q - max μ mc) : ℝ) : EReal) = _
    rw [← coe_sum, ← EReal.coe_add, hs]
    congr 1
    linear_combination S * e1
  · show ((Real.exp (μ - max μ mc) * (Real.exp (-μ) * A) : ℝ) : EReal)
        + ∑ q, ((Real.exp (s q - max μ mc) * v q : ℝ) : EReal) = _
    rw [← coe_sum, ← EReal.coe_add, hv]
    congr 1
    linear_combination A * e1

/-- The first update, from level `-∞` and zero sums: the level becomes the tile's largest score and the sums the
    tile's own. -/
theorem rowStep_bot (hT : 0 < T) (s v : Fin T → ℝ) :
    ∃ μ' : ℝ, rowStep (fun q => (s q : EReal)) (fun q => (v q : EReal)) (⊥, 0, 0)
      = atLevel μ' (∑ q, Real.exp (s q)) (∑ q, Real.exp (s q) * v q) := by
  obtain ⟨mc, hmc⟩ := fold_max_real hT s
  refine ⟨mc, ?_⟩
  have hs : ∑ q, Real.exp (s q - mc) = Real.exp (-mc) * ∑ q, Real.exp (s q) := by
    rw [Finset.mul_sum]; exact Finset.sum_congr rfl fun q _ => exp_shift _ _
  have hv : ∑ q, Real.exp (s q - mc) * v q = Real.exp (-mc) * ∑ q, Real.exp (s q) * v q := by
    rw [Finset.mul_sum]; exact Finset.sum_congr rfl fun q _ => by rw [exp_shift, mul_assoc]
  unfold rowStep atLevel
  simp only [hmc, max_bot_left, EReal.bot_sub, Ideal.exp_bot, zero_mul, zero_add, exp_sub_coe, ← EReal.coe_mul]
  refine Prod.ext rfl (Prod.ext ?_ ?_)
  · show ∑ q, ((Real.exp (s q - mc) : ℝ) : EReal) = _
    rw [← coe_sum, hs]
  · show ∑ q, ((Real.exp (s q - mc) * v q : ℝ) : EReal) = _
    rw [← coe_sum, hv]

/-- A tile of one row: its scores and its values. -/
abbrev Tile (T : ℕ) := (Fin T → ℝ) × (Fin T → ℝ)

/-- The update by a tile of reals. -/
def tileStep (σ : EReal × EReal × EReal) (t : Tile T) : EReal × EReal × EReal :=
  rowStep (fun q => (t.1 q : EReal)) (fun q => (t.2 q : EReal)) σ

/-- The unnormalised normaliser of a list of tiles. -/
def sumExp (ts : List (Tile T)) : ℝ := (ts.map fun t => ∑ q, Real.exp (t.1 q)).sum

/-- The unnormalised weighted sum of a list of tiles. -/
def sumExpVal (ts : List (Tile T)) : ℝ := (ts.map fun t => ∑ q, Real.exp (t.1 q) * t.2 q).sum

theorem foldl_atLevel (hT : 0 < T) : ∀ (ts : List (Tile T)) (μ S A : ℝ),
    ∃ μ' : ℝ, ts.foldl tileStep (atLevel μ S A) = atLevel μ' (S + sumExp ts) (A + sumExpVal ts)
  | [], μ, S, A => ⟨μ, by simp [sumExp, sumExpVal]⟩
  | t :: ts, μ, S, A => by
    obtain ⟨μ1, h1⟩ := rowStep_atLevel hT t.1 t.2 μ S A
    obtain ⟨μ', h'⟩ := foldl_atLevel hT ts μ1 (S + ∑ q, Real.exp (t.1 q)) (A + ∑ q, Real.exp (t.1 q) * t.2 q)
    refine ⟨μ', ?_⟩
    rw [List.foldl_cons]
    show List.foldl tileStep (rowStep _ _ (atLevel μ S A)) ts = _
    rw [h1, h']
    simp only [sumExp, sumExpVal, List.map_cons, List.sum_cons, add_assoc]

theorem sumExp_nonneg : ∀ ts : List (Tile T), 0 ≤ sumExp ts
  | [] => by simp [sumExp]
  | t :: ts => by
    have := sumExp_nonneg ts
    have h : 0 ≤ ∑ q, Real.exp (t.1 q) := Finset.sum_nonneg fun q _ => (Real.exp_pos _).le
    simp only [sumExp, List.map_cons, List.sum_cons] at this ⊢
    exact add_nonneg h this

theorem sumExp_pos (hT : 0 < T) (t : Tile T) (ts : List (Tile T)) : 0 < sumExp (t :: ts) := by
  have h : 0 < ∑ q, Real.exp (t.1 q) :=
    Finset.sum_pos (fun q _ => Real.exp_pos _) ⟨⟨0, hT⟩, Finset.mem_univ _⟩
  have := sumExp_nonneg ts
  simp only [sumExp, List.map_cons, List.sum_cons] at this ⊢
  exact add_pos_of_pos_of_nonneg h this

/-- The quotient of the two sums of a state at a real level is the quotient of the unnormalised sums. -/
theorem div_atLevel (μ S A : ℝ) (hS : 0 < S) :
    Ideal.div (atLevel μ S A).2.2 (atLevel μ S A).2.1 = ((A / S : ℝ) : EReal) := by
  show Ideal.div ((Real.exp (-μ) * A : ℝ) : EReal) ((Real.exp (-μ) * S : ℝ) : EReal) = _
  have he : Real.exp (-μ) ≠ 0 := Real.exp_ne_zero _
  have hne : Real.exp (-μ) * S ≠ 0 := mul_ne_zero he hS.ne'
  rw [Ideal.div_coe hne, ← EReal.coe_mul, mul_one_div, mul_div_mul_left _ _ he]

/-- After any non-empty list of tiles, from level `-∞` and zero sums, the weighted sum over the normaliser is the
    softmax-weighted average of all the tiles' values. -/
theorem online_avg (hT : 0 < T) (t : Tile T) (ts : List (Tile T)) :
    Ideal.div ((t :: ts).foldl tileStep (⊥, 0, 0)).2.2 ((t :: ts).foldl tileStep (⊥, 0, 0)).2.1
      = ((sumExpVal (t :: ts) / sumExp (t :: ts) : ℝ) : EReal) := by
  obtain ⟨μ1, h1⟩ := rowStep_bot hT t.1 t.2
  obtain ⟨μ', h'⟩ := foldl_atLevel hT ts μ1 (∑ q, Real.exp (t.1 q)) (∑ q, Real.exp (t.1 q) * t.2 q)
  have hfold : (t :: ts).foldl tileStep (⊥, 0, 0)
      = atLevel μ' (sumExp (t :: ts)) (sumExpVal (t :: ts)) := by
    rw [List.foldl_cons]
    show List.foldl tileStep (rowStep _ _ (⊥, 0, 0)) ts = _
    rw [h1, h']
    simp only [sumExp, sumExpVal, List.map_cons, List.sum_cons]
  rw [hfold]
  exact div_atLevel μ' _ _ (sumExp_pos hT t ts)

/-- The reference's form: every weight `e^{ℓ j - μ}` divided by the sum of the weights, then the weighted sum of the
    values — the same average, whatever the real shift `μ`. -/
theorem softmax_avg {N : ℕ} (hN : 0 < N) (ℓ x : Fin N → ℝ) (μ : ℝ) :
    ∑ j, Ideal.div (Ideal.exp ((ℓ j : EReal) - (μ : EReal)))
        ((0 : EReal) + ∑ j', Ideal.exp ((ℓ j' : EReal) - (μ : EReal))) * (x j : EReal)
      = (((∑ j, Real.exp (ℓ j) * x j) / ∑ j, Real.exp (ℓ j) : ℝ) : EReal) := by
  have hS : 0 < ∑ j, Real.exp (ℓ j) := Finset.sum_pos (fun q _ => Real.exp_pos _) ⟨⟨0, hN⟩, Finset.mem_univ _⟩
  have he : Real.exp (-μ) ≠ 0 := Real.exp_ne_zero _
  have hZ : ∑ j, Real.exp (ℓ j - μ) = Real.exp (-μ) * ∑ j, Real.exp (ℓ j) := by
    rw [Finset.mul_sum]; exact Finset.sum_congr rfl fun q _ => exp_shift _ _
  have hne : Real.exp (-μ) * ∑ j, Real.exp (ℓ j) ≠ 0 := mul_ne_zero he hS.ne'
  simp only [exp_sub_coe, zero_add]
  rw [← coe_sum, hZ]
  simp only [Ideal.div_coe hne, ← EReal.coe_mul]
  rw [← coe_sum]
  congr 1
  rw [Finset.sum_div]
  refine Finset.sum_congr rfl fun j _ => ?_
  rw [exp_shift, mul_one_div, mul_div_mul_left _ _ he, div_mul_eq_mul_div]

/-- The 8192 positions as 8 tiles of 1024. -/
def tileEquiv : Fin 8 × Fin 1024 ≃ Fin 8192 where
  toFun p := ⟨1024 * p.1.val + p.2.val, by have := p.1.isLt; have := p.2.isLt; omega⟩
  invFun j := (⟨j.val / 1024, by have := j.isLt; omega⟩, ⟨j.val % 1024, by omega⟩)
  left_inv p := by
    have := p.1.isLt; have := p.2.isLt
    apply Prod.ext <;> apply Fin.ext <;> simp only <;> omega
  right_inv j := by apply Fin.ext; simp only; omega

/-- A sum over the 8192 positions is the sum over the tiles of the sums inside each tile. -/
theorem sum_tiles {M : Type*} [AddCommMonoid M] (f : Fin 8192 → M) :
    ∑ j, f j = ∑ k : Fin 8, ∑ q : Fin 1024, f (tileEquiv (k, q)) :=
  (Equiv.sum_comp tileEquiv f).symm.trans (Fintype.sum_prod_type' fun k q => f (tileEquiv (k, q)))

end Cert.OnlineSoftmax

end
-- ==== Proof.LibColumns.lean ====
/-
  A matrix and its column of row sums, read at explicit coordinates (general lemmas, no program imported).

  Summing each row of an `[a, b]` matrix and keeping the axis is three operations: the lane sum `[a, b] → [a]`, the cast of the
  sums to a column `[a] → [a, 1]`, and the broadcast of the column over the rows' entries `[a, 1] → [a, b]`. Each is read here
  at an index written with explicit coordinates, for any extents: entry `p` of the sums is the sum of row `p`; entry (p, u) of
  the column is entry `p` of the sums; entry (p, c) of the broadcast is the column's entry of row `p`.
-/
import Idealize.ShloMosaic.PureOps.Ideal
import Idealize.ShloMosaic.PureOps.Ideal.Laws
import Idealize.ShloMosaic.Lib.ValueIdx
import Idealize.ShloMosaic.Lib.Pipeline.Value

noncomputable section

namespace Cert.Columns

open Idealize.ShloMosaic Idealize.ShloMosaic.ValueIdx

variable {α : Type}

/-- An `[a]` array cast to a column `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum along the rows of an `[a, b]` matrix of extended reals, at row `p`, is the sum of the row's entries. -/
theorem rowSum_apply {a b : ℕ} (src : FVec Ideal ⟨2, ![a, b]⟩ .f32) (hr : (⟨2, ![a, b]⟩ : Shape).Reduces [1] ⟨1, ![a]⟩)
    (hφ : FKind.Formats .f32) (hacc : (0x00000000#32 : BitVec 32) = FKind.add.neutral .f32 hφ) (p : Fin a) :
    multiReduction .add [1] ⟨1, ![a]⟩ src 0x00000000#32 hr hφ hacc (ix1 p) = ∑ k : Fin b, src (ix2 p k) := by
  refine (Ideal.multiReduction_add_single src 0x00000000#32 hr hφ hacc (ix1 p)).trans ?_
  refine Finset.sum_congr rfl fun k _ => congrArg src ?_
  funext c
  refine Fin.ext ?_
  rw [hr.lift_val]
  match c with
  | ⟨0, _⟩ => rfl
  | ⟨1, _⟩ => rfl

end Cert.Columns

end
-- ==== Proof.LibAffineLayer.lean ====
/-
  General lemmas for an affine layer `x ↦ x · W + b` written two ways: as ONE product over a concatenated
  operand, and as a SUM of products over the concatenation's pieces against the matching row blocks of `W`.

  * `sum_split2`, `sum_split3`: a finite sum over `Fin n` is the sum of its sums over two (three) consecutive
    ranges — in any commutative monoid, so it holds on the extended reals with no finiteness asked.
  * `plain_sum`: the contraction sum of a plain `[M,K] × [K,N]` product (one contracted axis, no batch axis),
    read at the output index `(p, q)`, is `∑ k, l (p, k) · r (k, q)`.
  * `matmul_zero_ix2` / `dotGeneral_ix2`: a matrix product into a zero accumulator, and the host's product, at the
    ideal values are that sum.
  * `concat2_left/right`, `concat3_fst/snd/thd`: a concatenation of two (three) matrices along the columns read at
    `(p, k)` with `k` in the first, second, third range of columns.
  * `row_bias_apply`: a vector cast to one row and broadcast over many rows reads, at `(p, q)`, the vector at `q`.
  * `rowBlock`, `slice_rows_eq`: rows `o … o + r - 1` of a matrix, and a slice along the rows as that block.
-/
import Idealize.ShloMosaic.Lib.ValueIdx
import Idealize.ShloMosaic.Lib.ValueLayout
import Idealize.ShloMosaic.Lib.Pipeline.Value
import Idealize.ShloMosaic.PureOps.Ideal.Laws

noncomputable section

namespace Cert.Lib.AffineLayer

open Idealize.ShloMosaic Idealize.ShloMosaic.ValueIdx

/-! ## Sums over consecutive ranges -/

/-- A sum over `Fin n` with `n = a + b` is the sum over the first `a` positions plus the sum over the next `b`. -/
theorem sum_split2 {M : Type*} [AddCommMonoid M] (a b n : ℕ) (h : a + b = n) (f : Fin n → M) :
    ∑ k : Fin n, f k = ∑ k : Fin a, f ⟨k.val, by omega⟩ + ∑ k : Fin b, f ⟨a + k.val, by omega⟩ := by
  subst h
  rw [Fin.sum_univ_add]
  rfl

/-- A sum over `Fin n` with `n = a + b + c` is the sum of its sums over the three consecutive ranges. -/
theorem sum_split3 {M : Type*} [AddCommMonoid M] (a b c n : ℕ) (h : a + b + c = n) (f : Fin n → M) :
    ∑ k : Fin n, f k
      = (∑ k : Fin a, f ⟨k.val, by omega⟩ + ∑ k : Fin b, f ⟨a + k.val, by omega⟩) + ∑ k : Fin c, f ⟨a + b + k.val, by omega⟩ := by
  subst h
  rw [Fin.sum_univ_add, Fin.sum_univ_add]
  rfl

/-! ## A plain matrix product read at an index -/

/-- The contraction sum of a plain `[M,K] × [K,N]` product at the output index `(p, q)`: the left operand's row `p`
    against the right operand's column `q`. -/
theorem plain_sum {M K N : ℕ} (l : (⟨2, ![M, K]⟩ : Shape).Idx → EReal) (r : (⟨2, ![K, N]⟩ : Shape).Idx → EReal)
    (p : Fin M) (q : Fin N) :
    ∑ k : (DotDims.plain M K N).contr.Idx,
        l ((DotDims.plain M K N).lhsIdx (ix2 p q) k) * r ((DotDims.plain M K N).rhsIdx (ix2 p q) k)
      = ∑ k : Fin K, l (ix2 p k) * r (ix2 k q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => rfl
      | ⟨1, _⟩ => exact ((DotDims.plain M K N).lhsIdx_val_of_single rfl _ _).trans hk)
  have er : (DotDims.plain M K N).rhsIdx (ix2 p q) ((contrEquiv1 (DotDims.plain M K N) K rfl rfl).symm k) = ix2 k q :=
    funext fun a => Fin.ext (by
      match a with
      | ⟨0, _⟩ => exact ((DotDims.plain M K N).rhsIdx_val_of_single rfl _ _).trans hk
      | ⟨1, _⟩ => rfl)
  rw [el, er]

/-- A kernel's matrix product into the zero accumulator, at the ideal values, read at `(p, q)`. -/
theorem matmul_zero_ix2 {M K N : ℕ} {φ₁ φ₂ : FTy} (D : DotDims ⟨2, ![M, K]⟩ ⟨2, ![K, N]⟩ ⟨2, ![M, N]⟩)
    (hD : D = DotDims.plain M K N) (prec : Option ContractPrecision)
    (a : FVec Ideal ⟨2, ![M, K]⟩ φ₁) (b : FVec Ideal ⟨2, ![K, N]⟩ φ₂) (p : Fin M) (q : Fin N) :
    matmul D prec a b (constant (F := Ideal) ⟨2, ![M, N]⟩ .f32 0x00000000#32) (ix2 p q)
      = ∑ k : Fin K, a (ix2 p k) * b (ix2 k q) := by
  subst hD
  exact (Ideal.matmul_constant_zero_apply _ prec a b (ix2 p q)).trans (plain_sum a b p q)

/-- The host's matrix product, at the ideal values, read at `(p, q)`. -/
theorem dotGeneral_ix2 {M K N : ℕ} {φ₁ φ₂ : FTy} (D : DotDims ⟨2, ![M, K]⟩ ⟨2, ![K, N]⟩ ⟨2, ![M, N]⟩)
    (hD : D = DotDims.plain M K N) (prec : Option ContractPrecision)
    (a : FVec Ideal ⟨2, ![M, K]⟩ φ₁) (b : FVec Ideal ⟨2, ![K, N]⟩ φ₂) (p : Fin M) (q : Fin N) :
    Host.dotGeneral D prec a b (ix2 p q) = ∑ k : Fin K, a (ix2 p k) * b (ix2 k q) := by
  subst hD
  exact (Ideal.dotGeneral_apply _ prec .single a b (ix2 p q)).trans (plain_sum a b p q)

/-! ## A concatenation along the columns read at an index -/

section Concat
variable {α : Type}

/-- Two matrices joined along the columns, read in the first one's columns. -/
theorem concat2_left {R a b n : ℕ} (x₁ : (⟨2, ![R, a]⟩ : Shape).Idx → α) (x₂ : (⟨2, ![R, b]⟩ : Shape).Idx → α)
    (h : Shape.Concatenates [⟨2, ![R, a]⟩, ⟨2, ![R, b]⟩] ⟨2, ![R, n]⟩ 1) (p : Fin R) (k : Fin a) (k' : Fin n)
    (hk : k'.val = k.val) :
    concatenate ⟨2, ![R, n]⟩ 1 [⟨⟨2, ![R, a]⟩, x₁⟩, ⟨⟨2, ![R, b]⟩, x₂⟩] h (ix2 p k') = x₁ (ix2 p k) :=
  concatenate_apply_piece 1 [⟨⟨2, ![R, a]⟩, x₁⟩, ⟨⟨2, ![R, b]⟩, x₂⟩] h (ix2 p k') 0 (Nat.zero_lt_succ _) _ x₁ rfl rfl 0 rfl (ix2 p k)
    (fun b hb => by
      match b with
      | ⟨0, _⟩ => rfl
      | ⟨1, _⟩ => exact absurd rfl hb)
    (by show 0 + k.val = k'.val; omega)

/-- Two matrices joined along the columns, read in the second one's columns. -/
theorem concat2_right {R a b n : ℕ} (x₁ : (⟨2, ![R, a]⟩ : Shape).Idx → α) (x₂ : (⟨2, ![R, b]⟩ : Shape).Idx → α)
    (h : Shape.Concatenates [⟨2, ![R, a]⟩, ⟨2, ![R, b]⟩] ⟨2, ![R, n]⟩ 1) (p : Fin R) (k : Fin b) (k' : Fin n)
    (hk : k'.val = a + k.val) :
    concatenate ⟨2, ![R, n]⟩ 1 [⟨⟨2, ![R, a]⟩, x₁⟩, ⟨⟨2, ![R, b]⟩, x₂⟩] h (ix2 p k') = x₂ (ix2 p k) :=
  concatenate_apply_piece 1 [⟨⟨2, ![R, a]⟩, x₁⟩, ⟨⟨2, ![R, b]⟩, x₂⟩] h (ix2 p k') 1 (Nat.succ_lt_succ (Nat.zero_lt_succ _)) _ x₂ rfl rfl a (by simp) (ix2 p k)
    (fun b hb => by
      match b with
      | ⟨0, _⟩ => rfl
      | ⟨1, _⟩ => exact absurd rfl hb)
    (by show a + k.val = k'.val; omega)

/-- Three matrices joined along the columns, read in the first one's columns. -/
theorem concat3_fst {R a b c n : ℕ} (x₁ : (⟨2, ![R, a]⟩ : Shape).Idx → α) (x₂ : (⟨2, ![R, b]⟩ : Shape).Idx → α)
    (x₃ : (⟨2, ![R, c]⟩ : Shape).Idx → α)
    (h : Shape.Concatenates [⟨2, ![R, a]⟩, ⟨2, ![R, b]⟩, ⟨2, ![R, c]⟩] ⟨2, ![R, n]⟩ 1) (p : Fin R) (k : Fin a) (k' : Fin n)
    (hk : k'.val = k.val) :
    concatenate ⟨2, ![R, n]⟩ 1 [⟨⟨2, ![R, a]⟩, x₁⟩, ⟨⟨2, ![R, b]⟩, x₂⟩, ⟨⟨2, ![R, c]⟩, x₃⟩] h (ix2 p k') = x₁ (ix2 p k) :=
  concatenate_apply_piece 1 [⟨⟨2, ![R, a]⟩, x₁⟩, ⟨⟨2, ![R, b]⟩, x₂⟩, ⟨⟨2, ![R, c]⟩, x₃⟩] h (ix2 p k') 0 (Nat.zero_lt_succ _) _ x₁ rfl rfl 0 rfl (ix2 p k)
    (fun b hb => by
      match b with
      | ⟨0, _⟩ => rfl
      | ⟨1, _⟩ => exact absurd rfl hb)
    (by show 0 + k.val = k'.val; omega)

/-- Three matrices joined along the columns, read in the second one's columns. -/
theorem concat3_snd {R a b c n : ℕ} (x₁ : (⟨2, ![R, a]⟩ : Shape).Idx → α) (x₂ : (⟨2, ![R, b]⟩ : Shape).Idx → α)
    (x₃ : (⟨2, ![R, c]⟩ : Shape).Idx → α)
    (h : Shape.Concatenates [⟨2, ![R, a]⟩, ⟨2, ![R, b]⟩, ⟨2, ![R, c]⟩] ⟨2, ![R, n]⟩ 1) (p : Fin R) (k : Fin b) (k' : Fin n)
    (hk : k'.val = a + k.val) :
    concatenate ⟨2, ![R, n]⟩ 1 [⟨⟨2, ![R, a]⟩, x₁⟩, ⟨⟨2, ![R, b]⟩, x₂⟩, ⟨⟨2, ![R, c]⟩, x₃⟩] h (ix2 p k') = x₂ (ix2 p k) :=
  concatenate_apply_piece 1 [⟨⟨2, ![R, a]⟩, x₁⟩, ⟨⟨2, ![R, b]⟩, x₂⟩, ⟨⟨2, ![R, c]⟩, x₃⟩] h (ix2 p k') 1 (Nat.succ_lt_succ (Nat.zero_lt_succ _)) _ x₂ rfl rfl a (by simp) (ix2 p k)
    (fun b hb => by
      match b with
      | ⟨0, _⟩ => rfl
      | ⟨1, _⟩ => exact absurd rfl hb)
    (by show a + k.val = k'.val; omega)

/-- Three matrices joined along the columns, read in the third one's columns. -/
theorem concat3_thd {R a b c n : ℕ} (x₁ : (⟨2, ![R, a]⟩ : Shape).Idx → α) (x₂ : (⟨2, ![R, b]⟩ : Shape).Idx → α)
    (x₃ : (⟨2, ![R, c]⟩ : Shape).Idx → α)
    (h : Shape.Concatenates [⟨2, ![R, a]⟩, ⟨2, ![R, b]⟩, ⟨2, ![R, c]⟩] ⟨2, ![R, n]⟩ 1) (p : Fin R) (k : Fin c) (k' : Fin n)
    (hk : k'.val = a + b + k.val) :
    concatenate ⟨2, ![R, n]⟩ 1 [⟨⟨2, ![R, a]⟩, x₁⟩, ⟨⟨2, ![R, b]⟩, x₂⟩, ⟨⟨2, ![R, c]⟩, x₃⟩] h (ix2 p k') = x₃ (ix2 p k) :=
  concatenate_apply_piece 1 [⟨⟨2, ![R, a]⟩, x₁⟩, ⟨⟨2, ![R, b]⟩, x₂⟩, ⟨⟨2, ![R, c]⟩, x₃⟩] h (ix2 p k') 2 (Nat.succ_lt_succ (Nat.succ_lt_succ (Nat.zero_lt_succ _))) _ x₃ rfl rfl (a + b) (by simp) (ix2 p k)
    (fun b hb => by
      match b with
      | ⟨0, _⟩ => rfl
      | ⟨1, _⟩ => exact absurd rfl hb)
    (by show a + b + k.val = k'.val; omega)

/-- A vector cast to one row and broadcast over `a` rows reads, at `(p, q)`, the vector at `q`. -/
theorem row_bias_apply {a b : ℕ} (v : (⟨1, ![b]⟩ : Shape).Idx → α)
    (h₁ : (⟨1, ![b]⟩ : Shape).ShapeCasts ⟨2, ![1, b]⟩) (h₂ : (⟨2, ![1, b]⟩ : Shape).Broadcasts ⟨2, ![a, b]⟩)
    (p : Fin a) (q : Fin b) :
    broadcastTo ⟨2, ![a, b]⟩ (shapeCast ⟨2, ![1, b]⟩ v h₁) h₂ (ix2 p q) = v (ix1 q) :=
  (broadcastTo_1b_ab_apply _ h₂ p q).trans (shapeCast_a_1a_apply v h₁ 0 q)

/-- Rows `o … o + r - 1` of a matrix with `n` rows. -/
def rowBlock {n c : ℕ} (o r : ℕ) (h : o + r ≤ n) (W : (⟨2, ![n, c]⟩ : Shape).Idx → α) : (⟨2, ![r, c]⟩ : Shape).Idx → α :=
  fun j => W (ix2 ⟨o + (j 0).val, by have := idx2_lt0 j; omega⟩ (j 1))

theorem rowBlock_ix2 {n c : ℕ} (o r : ℕ) (h : o + r ≤ n) (W : (⟨2, ![n, c]⟩ : Shape).Idx → α) (p : Fin r) (q : Fin c) :
    rowBlock o r h W (ix2 p q) = W (ix2 ⟨o + p.val, by omega⟩ q) := rfl

/-- A slice of a matrix along its rows from row `o` is that block of rows. -/
theorem slice_rows_eq {n c r : ℕ} (o : ℕ) (h : o + r ≤ n) (W : (⟨2, ![n, c]⟩ : Shape).Idx → α)
    (hs : (⟨2, ![n, c]⟩ : Shape).Slices ![o, 0] ⟨2, ![r, c]⟩) :
    extractStridedSlice ⟨2, ![r, c]⟩ ![o, 0] W hs = rowBlock o r h W := by
  funext j
  obtain ⟨p, q, rfl⟩ : ∃ (p : Fin r) (q : Fin c), j = ix2 p q := ⟨j 0, j 1, eq_ix2 j⟩
  exact slice2_axis0_apply o W hs p q ⟨o + p.val, by omega⟩ rfl

end Concat

end Cert.Lib.AffineLayer

end
-- ==== Proof.LibRowMax.lean ====
/-
  The maximum along the rows of a matrix of extended reals, read at an explicit coordinate (a general lemma, no program
  imported): entry `p` of the lane maximum `[a, b] → [a]` taken from `-∞` is the fold of `max` from `⊥` over row `p`.
-/
import Idealize.ShloMosaic.PureOps.Ideal
import Idealize.ShloMosaic.PureOps.Ideal.Laws
import Idealize.ShloMosaic.Lib.ValueIdx
import Idealize.ShloMosaic.Lib.Pipeline.Value

noncomputable section

namespace Cert.RowMax

open Idealize.ShloMosaic Idealize.ShloMosaic.ValueIdx

/-- The word of `-inf` denotes the bottom of the extended reals. -/
theorem neg_inf : FloatOps.ofBits (F := Ideal) .f32 0xFF800000#32 = (⊥ : EReal) := by
  show Ideal.ofBits .f32 0xFF800000#32 = ⊥
  simp [Ideal.ofBits, Ideal.ieee]

/-- The maximum along the rows of an `[a, b]` matrix of extended reals, started from `-∞`, at row `p`, is the largest entry
    of the row (the fold of `max` from `⊥` over the row's entries). -/
theorem rowMax_apply {a b : ℕ} (src : FVec Ideal ⟨2, ![a, b]⟩ .f32) (hr : (⟨2, ![a, b]⟩ : Shape).Reduces [1] ⟨1, ![a]⟩)
    (hφ : FKind.Formats .f32) (hacc : (0xFF800000#32 : BitVec 32) = FKind.maximumf.neutral .f32 hφ) (p : Fin a) :
    multiReduction .maximumf [1] ⟨1, ![a]⟩ src 0xFF800000#32 hr hφ hacc (ix1 p)
      = (Finset.univ : Finset (Fin b)).fold max (⊥ : EReal) (fun k => src (ix2 p k)) := by
  refine (Ideal.multiReduction_maximumf_single src 0xFF800000#32 hr hφ hacc (ix1 p)).trans ?_
  have hf : (src ∘ hr.lift (ix1 p)) = fun k : Fin b => src (ix2 p k) := by
    funext k
    refine congrArg src ?_
    funext c
    refine Fin.ext ?_
    rw [hr.lift_val]
    match c with
    | ⟨0, _⟩ => rfl
    | ⟨1, _⟩ => rfl
  show (Finset.univ : Finset (Fin b)).fold max (FloatOps.ofBits (F := Ideal) .f32 0xFF800000#32) (src ∘ hr.lift (ix1 p)) = _
  rw [neg_inf, hf]
  rfl

end Cert.RowMax

end
-- ==== Proof.KernelRows.lean ====
/-
  One update of the body, read one query row at a time.

  Row `p` of the running maximum and of the running normaliser, and entry `(p, d)` of the running weighted sum, depend
  only on row `p` of the tile's scores and on column `d` of the tile's rows of `x`: the triple
  `(m p, l p, acc (p, d))` after a tile is the scalar update `OnlineSoftmax.rowStep` of the triple before it
  (`step_row`).  Folding over the tiles, the triple after all of them is the scalar fold over the rows' data
  (`foldl_row`), and the entry of the block written back is the quotient of its last two components (`flash_row`).
  Each vector operation is read at explicit coordinates: the products as sums over the contracted axis, the maximum and the
  sum along a row as the fold and the sum over the row, the column casts and broadcasts as the column's entry.
-/
import proofs.«161730_j65481071402025_2_alg».proof.Proof.KernelTrip
import proofs.«161730_j65481071402025_2_alg».proof.Proof.OnlineSoftmax
import proofs.«161730_j65481071402025_2_alg».proof.Proof.LibColumns
import proofs.«161730_j65481071402025_2_alg».proof.Proof.LibAffineLayer
import proofs.«161730_j65481071402025_2_alg».proof.Proof.LibRowMax
import Idealize.ShloMosaic.Lib.ValueIdx
import Idealize.ShloMosaic.Lib.Pipeline.Value
import Idealize.ShloMosaic.PureOps.Ideal.Laws

set_option synthInstance.maxSize 4096

noncomputable section

open Idealize.ShloMosaic Idealize.ShloMosaic.ValueIdx

namespace Cert.KernelIdeal.Rows

open Cert.KernelIdeal Cert.KernelIdeal.Gen Cert.KernelIdeal.Trip
open Cert.OnlineSoftmax (rowStep)

theorem dot_proj : dot_S1024x64_S64x64_S1024x64_1_0_0_1_n_n = DotDims.plain 1024 64 64 := rfl
theorem dot_scores : dot_S1024x64_S64x1024_S1024x1024_1_0_0_1_n_n = DotDims.plain 1024 64 1024 := rfl
theorem dot_values : dot_S1024x1024_S1024x64_S1024x64_1_0_0_1_n_n = DotDims.plain 1024 1024 64 := rfl

/-- A projected tile at `(p, k)`: row `p` of the tile against column `k` of the weights. -/
theorem proj_apply (xb : FVec Ideal S1024x64 .f32) (w : FVec Ideal S64x64 .f32) (p : Fin 1024) (k : Fin 64) :
    proj xb w (ix2 p k) = ∑ e : Fin 64, xb (ix2 p e) * w (ix2 e k) :=
  Cert.Lib.AffineLayer.matmul_zero_ix2 _ dot_proj none (truncf .bf16 xb bitsLt_bf16_f32) (truncf .bf16 w bitsLt_bf16_f32) p k

/-- A score at `(p, c)`: query row `p` against key row `c`, times the scale's word. -/
theorem scores_apply (q k : FVec Ideal S1024x64 .f32) (p c : Fin 1024) :
    scores q k (ix2 p c) = (∑ e : Fin 64, q (ix2 p e) * k (ix2 c e)) * Ideal.ofBits .f32 0x3E000000#32 := by
  have h := Cert.Lib.AffineLayer.matmul_zero_ix2 _ dot_scores none (truncf .bf16 q bitsLt_bf16_f32)
    (transpose S64x1024 [1, 0] (truncf .bf16 k bitsLt_bf16_f32) transposes_S1024x64_p1_0_S64x1024) p c
  have ht : ∀ e : Fin 64, transpose S64x1024 [1, 0] (truncf .bf16 k bitsLt_bf16_f32) transposes_S1024x64_p1_0_S64x1024 (ix2 e c)
      = k (ix2 c e) := fun e =>
    transpose_apply [1, 0] (truncf .bf16 k bitsLt_bf16_f32) transposes_S1024x64_p1_0_S64x1024 (ix2 e c) (ix2 c e)
      (fun b => match b with
        | ⟨0, _⟩ => rfl
        | ⟨1, _⟩ => rfl)
  simp only [ht] at h
  exact congrArg (· * Ideal.ofBits .f32 0x3E000000#32) h

/-- The new maximum of row `p`: the old one against the row's largest score. -/
theorem newMax_row (m : FVec Ideal S1024x1 .f32) (s : FVec Ideal S1024x1024 .f32) (p : Fin 1024) :
    newMax m s (ix2 p (0 : Fin 1)) = max (m (ix2 p (0 : Fin 1))) ((Finset.univ : Finset (Fin 1024)).fold max ⊥ fun c => s (ix2 p c)) := by
  unfold newMax
  refine congrArg (max (m (ix2 p (0 : Fin 1)))) ?_
  refine (Cert.Columns.shapeCast_a_a1_apply _ shapeCasts_S1024_S1024x1 p 0).trans ?_
  exact Cert.RowMax.rowMax_apply s reduces_S1024x1024_S1024 (.inl rfl) rfl p

/-- The rescaling factor of row `p`. -/
theorem rescale_row (m m' : FVec Ideal S1024x1 .f32) (p : Fin 1024) :
    rescale m m' (ix2 p (0 : Fin 1)) = Ideal.exp (m (ix2 p (0 : Fin 1)) - m' (ix2 p (0 : Fin 1))) := rfl

/-- A weight at `(p, c)`: the score against the row's new maximum. -/
theorem weights_apply (s : FVec Ideal S1024x1024 .f32) (m' : FVec Ideal S1024x1 .f32) (p c : Fin 1024) :
    weights s m' (ix2 p c) = Ideal.exp (s (ix2 p c) - m' (ix2 p (0 : Fin 1))) := by
  unfold weights
  show Ideal.exp (s (ix2 p c) - broadcastTo S1024x1024 m' broadcasts_S1024x1_S1024x1024 (ix2 p c)) = _
  rw [Cert.Columns.broadcastTo_a1_ab_apply]

/-- The new normaliser of row `p`: the old one rescaled, plus the row's weights. -/
theorem newNorm_row (a l : FVec Ideal S1024x1 .f32) (w : FVec Ideal S1024x1024 .f32) (p : Fin 1024) :
    newNorm a l w (ix2 p (0 : Fin 1)) = a (ix2 p (0 : Fin 1)) * l (ix2 p (0 : Fin 1)) + ∑ c : Fin 1024, w (ix2 p c) := by
  unfold newNorm
  refine congrArg (a (ix2 p (0 : Fin 1)) * l (ix2 p (0 : Fin 1)) + ·) ?_
  refine (Cert.Columns.shapeCast_a_a1_apply _ shapeCasts_S1024_S1024x1 p 0).trans ?_
  exact Cert.Columns.rowSum_apply w reduces_S1024x1024_S1024 (.inl rfl) rfl p

/-- The new weighted sum at `(p, d)`: the old one rescaled, plus the row's weights against column `d` of the tile. -/
theorem newAcc_apply (a : FVec Ideal S1024x1 .f32) (acc : FVec Ideal S1024x64 .f32) (w : FVec Ideal S1024x1024 .f32)
    (xk : FVec Ideal S1024x64 .f32) (p : Fin 1024) (d : Fin 64) :
    newAcc a acc w xk (ix2 p d) = a (ix2 p (0 : Fin 1)) * acc (ix2 p d) + ∑ c : Fin 1024, w (ix2 p c) * xk (ix2 c d) := by
  unfold newAcc
  show broadcastTo S1024x64 a broadcasts_S1024x1_S1024x64 (ix2 p d) * acc (ix2 p d)
      + matmul dot_S1024x1024_S1024x64_S1024x64_1_0_0_1_n_n none (truncf .bf16 w bitsLt_bf16_f32) (truncf .bf16 xk bitsLt_bf16_f32)
          (constant (F := Ideal) S1024x64 .f32 0x00000000#32) (ix2 p d) = _
  rw [Cert.Columns.broadcastTo_a1_ab_apply, Cert.Lib.AffineLayer.matmul_zero_ix2 _ dot_values]
  rfl

/-- Row `p`, column `d` of a state. -/
def triple (σ : St Ideal) (p : Fin 1024) (d : Fin 64) : EReal × EReal × EReal :=
  (σ.m (ix2 p (0 : Fin 1)), σ.l (ix2 p (0 : Fin 1)), σ.acc (ix2 p d))

/-- The data of row `p`, column `d` in one tile: the row's scores against the tile, and the tile's column. -/
def rowData (q : FVec Ideal S1024x64 .f32) (ent : FVec Ideal S64x64 .f32) (p : Fin 1024) (d : Fin 64)
    (xk : FVec Ideal S1024x64 .f32) : (Fin 1024 → EReal) × (Fin 1024 → EReal) :=
  (fun c => scores q (proj xk ent) (ix2 p c), fun c => xk (ix2 c d))

/-- One tile, read at row `p` and column `d`, is the scalar update. -/
theorem step_row (q : FVec Ideal S1024x64 .f32) (ent : FVec Ideal S64x64 .f32) (σ : St Ideal)
    (xk : FVec Ideal S1024x64 .f32) (p : Fin 1024) (d : Fin 64) :
    triple (step q ent σ xk) p d = rowStep (rowData q ent p d xk).1 (rowData q ent p d xk).2 (triple σ p d) := by
  unfold triple step rowStep rowData
  simp only [newNorm_row, newAcc_apply, rescale_row, weights_apply, newMax_row]

/-- All the tiles, read at row `p` and column `d`, are the scalar fold. -/
theorem foldl_row (q : FVec Ideal S1024x64 .f32) (ent : FVec Ideal S64x64 .f32) (p : Fin 1024) (d : Fin 64) :
    ∀ (tiles : List (FVec Ideal S1024x64 .f32)) (σ : St Ideal),
      triple (tiles.foldl (step q ent) σ) p d
        = (tiles.map (rowData q ent p d)).foldl (fun τ sv => rowStep sv.1 sv.2 τ) (triple σ p d)
  | [], σ => rfl
  | xk :: tiles, σ => by
    rw [List.foldl_cons, foldl_row q ent p d tiles (step q ent σ xk), step_row, List.map_cons, List.foldl_cons]

/-- The start, read at any row and column: maximum `-∞`, both sums zero. -/
theorem triple_init (p : Fin 1024) (d : Fin 64) : triple (init (F := Ideal)) p d = (⊥, 0, 0) := by
  unfold triple init
  show (Ideal.ofBits .f32 0xFF800000#32, Ideal.ofBits .f32 0x00000000#32, Ideal.ofBits .f32 0x00000000#32) = _
  rw [Ideal.ofBits_zero_f32]
  exact congrArg (·, (0 : EReal), (0 : EReal)) Cert.RowMax.neg_inf

/-- The block written back, at `(p, d)`: the quotient of the last two components of the scalar fold over the tiles. -/
theorem flash_row (xq : FVec Ideal S1024x64 .f32) (rot ent : FVec Ideal S64x64 .f32)
    (tiles : List (FVec Ideal S1024x64 .f32)) (p : Fin 1024) (d : Fin 64) :
    flash xq rot ent tiles (ix2 p d)
      = Ideal.div ((tiles.map (rowData (proj xq rot) ent p d)).foldl (fun τ sv => rowStep sv.1 sv.2 τ) (⊥, 0, 0)).2.2
          ((tiles.map (rowData (proj xq rot) ent p d)).foldl (fun τ sv => rowStep sv.1 sv.2 τ) (⊥, 0, 0)).2.1 := by
  rw [← triple_init p d, ← foldl_row]
  unfold flash finish triple
  show Ideal.div _ (broadcastTo S1024x64 _ broadcasts_S1024x1_S1024x64 (ix2 p d)) = _
  rw [Cert.Columns.broadcastTo_a1_ab_apply]

end Cert.KernelIdeal.Rows

end
-- ==== Proof.Spec.lean ====
/-
  The result both programs compute, as one function of the three argument arrays.

  With `x` an `8192 × 64` array and `W₁`, `W₂` two `64 × 64` arrays of reals, let `Q = x · W₁` and `K = x · W₂`.  The
  score of query row `i` against key row `j` is `ℓ i j = (∑ e, Q i e · K j e) / 8`, and the result at `(i, d)` is the
  softmax-weighted average of column `d` of `x`:  `(∑ j, e^{ℓ i j} · x j d) / ∑ j, e^{ℓ i j}`.

  The programs run on extended reals; `G` reads each argument entry's real part, so it is a function of the arrays
  whatever they hold, and the two programs are shown to compute it when every entry is finite (`IsReal`).
-/
import Idealize.ShloMosaic.PureOps.Ideal
import Idealize.ShloMosaic.Lib.ValueIdx

noncomputable section

namespace Cert.Attention

open Idealize.ShloMosaic Idealize.ShloMosaic.ValueIdx

/-- Row `i` of `x` against column `e` of a weight matrix. -/
def proj (xr : Fin 8192 → Fin 64 → ℝ) (w : Fin 64 → Fin 64 → ℝ) (i : Fin 8192) (e : Fin 64) : ℝ :=
  ∑ a : Fin 64, xr i a * w a e

/-- The score of query row `i` against key row `j`. -/
def logit (xr : Fin 8192 → Fin 64 → ℝ) (w1 w2 : Fin 64 → Fin 64 → ℝ) (i j : Fin 8192) : ℝ :=
  (∑ e : Fin 64, proj xr w1 i e * proj xr w2 j e) * (1 / 8)

/-- The softmax-weighted average of column `d` of `x` for query row `i`. -/
def attn (xr : Fin 8192 → Fin 64 → ℝ) (w1 w2 : Fin 64 → Fin 64 → ℝ) (i : Fin 8192) (d : Fin 64) : ℝ :=
  (∑ j, Real.exp (logit xr w1 w2 i j) * xr j d) / ∑ j, Real.exp (logit xr w1 w2 i j)

/-- The real parts of a matrix of extended reals. -/
def re {a b : ℕ} (x : (⟨2, ![a, b]⟩ : Shape).Idx → EReal) (i : Fin a) (j : Fin b) : ℝ := (x (ix2 i j)).toReal

/-- Every entry of the matrix is a real number. -/
def IsReal {a b : ℕ} (x : (⟨2, ![a, b]⟩ : Shape).Idx → EReal) : Prop :=
  ∀ (i : Fin a) (j : Fin b), x (ix2 i j) = ((re x i j : ℝ) : EReal)

/-- The result array as a function of the argument arrays. -/
def G (x0 : (⟨2, ![8192, 64]⟩ : Shape).Idx → EReal) (x1 x2 : (⟨2, ![64, 64]⟩ : Shape).Idx → EReal) :
    (⟨2, ![8192, 64]⟩ : Shape).Idx → EReal :=
  fun idx => ((attn (re x0) (re x1) (re x2) (idx 0) (idx 1) : ℝ) : EReal)

theorem G_ix2 (x0 : (⟨2, ![8192, 64]⟩ : Shape).Idx → EReal) (x1 x2 : (⟨2, ![64, 64]⟩ : Shape).Idx → EReal)
    (i : Fin 8192) (d : Fin 64) : G x0 x1 x2 (ix2 i d) = ((attn (re x0) (re x1) (re x2) i d : ℝ) : EReal) := rfl

end Cert.Attention

end
-- ==== Proof.Consts.lean ====
/-
  The float literals the two programs spell, as the extended reals their words denote: one eighth (the kernel's scale),
  sixty-four and one (the reference's `1 / sqrt 64`), and `-∞` (where both maxima start).  Stated once here, so that
  no other module unfolds the encoding of a float word.
-/
import Idealize.ShloMosaic.PureOps.Ideal

noncomputable section

namespace Cert.Consts

open Idealize.ShloMosaic

/-- The word of `0.125` denotes one eighth. -/
theorem ofBits_eighth : Ideal.ofBits .f32 0x3E000000#32 = ((1 / 8 : ℝ) : EReal) := by
  simp [Ideal.ofBits, Ideal.ieee, -EReal.coe_mul]; norm_num

/-- The word of `64.0` denotes sixty-four. -/
theorem ofBits_64 : Ideal.ofBits .f32 0x42800000#32 = ((64 : ℝ) : EReal) := by
  simp [Ideal.ofBits, Ideal.ieee, -EReal.coe_mul]; norm_num

/-- The word of `1.0` denotes one. -/
theorem ofBits_one : Ideal.ofBits .f32 0x3F800000#32 = ((1 : ℝ) : EReal) := by
  simp [Ideal.ofBits, Ideal.ieee, -EReal.coe_mul]; norm_num

/-- The word of `-inf` denotes the bottom of the extended reals. -/
theorem ofBits_neg_inf : Ideal.ofBits .f32 0xFF800000#32 = (⊥ : EReal) := by
  simp [Ideal.ofBits, Ideal.ieee]

/-- The square root of sixty-four is eight, so one over it is one eighth: the reference's scale is the kernel's. -/
theorem one_div_sqrt_64 : Ideal.div ((1 : ℝ) : EReal) (Ideal.sqrt ((64 : ℝ) : EReal)) = ((1 / 8 : ℝ) : EReal) := by
  have h8 : Real.sqrt 64 = 8 := by
    rw [show (64 : ℝ) = 8 ^ 2 by norm_num]; exact Real.sqrt_sq (by norm_num)
  rw [Ideal.sqrt_coe, if_neg (by norm_num), h8, Ideal.div_coe (by norm_num : (8 : ℝ) ≠ 0), ← EReal.coe_mul]
  congr 1; norm_num

end Cert.Consts

end
-- ==== Proof.KernelValue.lean ====
/-
  The kernel's result array is the attention output `G` of the argument arrays, when every argument entry is finite.

  A tile of 1024 rows loaded at row offset `o` reads `x` at rows `o … o + 1023`; with finite entries a projected tile is the
  injection of the real projection, and a score the injection of the real score `ℓ i j` of the global rows
  `i = 1024 · t + p` (the grid point's tile of queries) and `j = 1024 · k + c` (the `k`-th tile of keys).  So row `p`,
  column `d` of the body's eight updates is the scalar fold over eight tiles of real data, whose quotient is the
  softmax-weighted average over all 8192 keys — `G` at `(i, d)`.  Grid point `t` writes its block to rows
  `1024 · t … 1024 · t + 1023`; the eight blocks cover the array.
-/
import proofs.«161730_j65481071402025_2_alg».proof.Proof.KernelRows
import proofs.«161730_j65481071402025_2_alg».proof.Proof.Spec
import proofs.«161730_j65481071402025_2_alg».proof.Proof.Consts

set_option synthInstance.maxSize 4096
set_option maxRecDepth 65536

noncomputable section

open Idealize.ShloMosaic Idealize.ShloMosaic.TcCoe Idealize.SL.Sem Idealize.ShloMosaic.ValueIdx
open Idealize.ShloMosaic.Pipeline (Dat)

namespace Cert.KernelIdeal.Result

open Cert.KernelIdeal Cert.KernelIdeal.Gen Cert.KernelIdeal.Trip Cert.KernelIdeal.Rows
open Cert.Attention (re IsReal G logit attn)
open Cert.OnlineSoftmax (rowStep tileStep Tile sumExp sumExpVal coe_sum tileEquiv)

/-! ## Tiles of finite entries -/

/-- A tile loaded at row offset `off 0` (column offset zero) reads `x` at the offset rows. -/
theorem rowsAt_apply (x0 : Vec Ideal S8192x64 .f32) (off : Fin 2 → Nat) (h : ∀ a, off a + S1024x64.size a ≤ S8192x64.size a)
    (p : Fin 1024) (e : Fin 64) (r : Fin 8192) (hr : r.val = off 0 + p.val) (h1 : off 1 = 0) :
    rowsAt x0 off h (ix2 p e) = x0 (ix2 r e) := by
  unfold rowsAt
  show x0 ((Rect.unit (s := S8192x64) off S1024x64.size h).toLoadRect.idx (ix2 p e)) = _
  refine congrArg x0 (funext fun a => Fin.ext ?_)
  match a with
  | ⟨0, _⟩ => show off 0 + 1 * p.val = r.val; omega
  | ⟨1, _⟩ => show off 1 + 1 * e.val = e.val; omega

/-- A projected tile of finite entries is the injection of the real projection of the offset rows. -/
theorem proj_real (x0 : Vec Ideal S8192x64 .f32) (w : Vec Ideal S64x64 .f32) (hx : IsReal x0) (hw : IsReal w)
    (off : Fin 2 → Nat) (h : ∀ a, off a + S1024x64.size a ≤ S8192x64.size a) (p : Fin 1024) (e : Fin 64) (r : Fin 8192)
    (hr : r.val = off 0 + p.val) (h1 : off 1 = 0) :
    proj (rowsAt x0 off h) w (ix2 p e) = ((Cert.Attention.proj (re x0) (re w) r e : ℝ) : EReal) := by
  rw [proj_apply]
  unfold Cert.Attention.proj
  rw [coe_sum]
  refine Finset.sum_congr rfl fun a _ => ?_
  rw [rowsAt_apply x0 off h p a r hr h1, hx r a, hw a e, EReal.coe_mul]

/-- A score of finite entries is the injection of the real score of the two global rows. -/
theorem scores_real (x0 : Vec Ideal S8192x64 .f32) (x1 x2 : Vec Ideal S64x64 .f32) (hx : IsReal x0) (h1 : IsReal x1) (h2 : IsReal x2)
    (offq : Fin 2 → Nat) (hq : ∀ a, offq a + S1024x64.size a ≤ S8192x64.size a)
    (offk : Fin 2 → Nat) (hk : ∀ a, offk a + S1024x64.size a ≤ S8192x64.size a)
    (p c : Fin 1024) (i j : Fin 8192) (hi : i.val = offq 0 + p.val) (hq1 : offq 1 = 0) (hj : j.val = offk 0 + c.val) (hk1 : offk 1 = 0) :
    scores (proj (rowsAt x0 offq hq) x1) (proj (rowsAt x0 offk hk) x2) (ix2 p c)
      = ((logit (re x0) (re x1) (re x2) i j : ℝ) : EReal) := by
  rw [scores_apply, Cert.Consts.ofBits_eighth]
  unfold logit
  rw [EReal.coe_mul, coe_sum]
  refine congrArg (· * ((1 / 8 : ℝ) : EReal)) (Finset.sum_congr rfl fun e _ => ?_)
  rw [proj_real x0 x1 hx h1 offq hq p e i hi hq1, proj_real x0 x2 hx h2 offk hk c e j hj hk1, EReal.coe_mul]

/-- The real data of query row `i`, column `d`, in the `k`-th tile of keys. -/
def realTile (xr : Fin 8192 → Fin 64 → ℝ) (w1 w2 : Fin 64 → Fin 64 → ℝ) (i : Fin 8192) (d : Fin 64) (k : Fin 8) : Tile 1024 :=
  (fun c => logit xr w1 w2 i (tileEquiv (k, c)), fun c => xr (tileEquiv (k, c)) d)

/-- A tile of reals, injected. -/
def coeTile (t : Tile 1024) : (Fin 1024 → EReal) × (Fin 1024 → EReal) := (fun c => (t.1 c : EReal), fun c => (t.2 c : EReal))

/-- The row's data in the `k`-th tile of keys is the injected real tile. -/
theorem rowData_real (x0 : Vec Ideal S8192x64 .f32) (x1 x2 : Vec Ideal S64x64 .f32) (hx : IsReal x0) (h1 : IsReal x1) (h2 : IsReal x2)
    (offq : Fin 2 → Nat) (hq : ∀ a, offq a + S1024x64.size a ≤ S8192x64.size a)
    (offk : Fin 2 → Nat) (hk : ∀ a, offk a + S1024x64.size a ≤ S8192x64.size a)
    (p : Fin 1024) (d : Fin 64) (i : Fin 8192) (k : Fin 8) (hi : i.val = offq 0 + p.val) (hq1 : offq 1 = 0)
    (hk0 : offk 0 = 1024 * k.val) (hk1 : offk 1 = 0) :
    rowData (proj (rowsAt x0 offq hq) x1) x2 p d (rowsAt x0 offk hk) = coeTile (realTile (re x0) (re x1) (re x2) i d k) := by
  unfold rowData coeTile realTile
  refine Prod.ext (funext fun c => ?_) (funext fun c => ?_)
  · exact scores_real x0 x1 x2 hx h1 h2 offq hq offk hk p c i (tileEquiv (k, c)) hi hq1 (by show 1024 * k.val + c.val = _; omega) hk1
  · show rowsAt x0 offk hk (ix2 c d) = _
    rw [rowsAt_apply x0 offk hk c d (tileEquiv (k, c)) (by show 1024 * k.val + c.val = _; omega) hk1, hx]

/-- The scalar fold over injected real tiles is the fold of the real tiles' updates. -/
theorem foldl_coeTile (ts : List (Tile 1024)) (σ : EReal × EReal × EReal) :
    (ts.map coeTile).foldl (fun τ sv => rowStep sv.1 sv.2 τ) σ = ts.foldl tileStep σ := by
  rw [List.foldl_map]
  rfl

/-- The eight tiles' unnormalised sums are the sums over all 8192 keys. -/
theorem sums_eight (T : Fin 8 → Tile 1024) :
    sumExp [T 0, T 1, T 2, T 3, T 4, T 5, T 6, T 7] = ∑ k : Fin 8, ∑ q, Real.exp ((T k).1 q)
    ∧ sumExpVal [T 0, T 1, T 2, T 3, T 4, T 5, T 6, T 7] = ∑ k : Fin 8, ∑ q, Real.exp ((T k).1 q) * (T k).2 q := by
  constructor
  · simp only [sumExp, List.map_cons, List.map_nil, List.sum_cons, List.sum_nil, add_zero, Fin.sum_univ_eight, add_assoc]
  · simp only [sumExpVal, List.map_cons, List.map_nil, List.sum_cons, List.sum_nil, add_zero, Fin.sum_univ_eight, add_assoc]

theorem off2_0 (k : Fin 8) : k0_off2 (BitVec.ofNat 32 k.val) 0 = 1024 * k.val := by rw [k0_off2_eq k]; rfl
theorem off2_1 (k : Fin 8) : k0_off2 (BitVec.ofNat 32 k.val) 1 = 0 := by rw [k0_off2_eq k]; rfl
theorem off1_0 (i : grid0.Coords) : k0_off1 i 0 = 1024 * (i 0).val := by rw [k0_off1_eq i]; rfl
theorem off1_1 (i : grid0.Coords) : k0_off1 i 1 = 0 := by rw [k0_off1_eq i]; rfl

/-- THE BLOCK A GRID POINT LEAVES, entry by entry: the attention output at the point's global rows. -/
theorem out_apply (c : Dev nD) (i : grid0.Coords) (a1 : Memref sig .tc .vmem S8192x64 .f32) (h1 : a1.IsWhole)
    (a2 : Memref sig .tc .vmem S64x64 .f32) (h2 : a2.IsWhole) (a3 : Memref sig .tc .vmem S64x64 .f32) (h3 : a3.IsWhole)
    (a4 : Memref sig .tc .vmem S1024x64 .f32) (h4 : a4.IsWhole)
    (x0 : Vec Ideal S8192x64 .f32) (x1 x2 : Vec Ideal S64x64 .f32) (hx : IsReal x0) (hx1 : IsReal x1) (hx2 : IsReal x2)
    (p : Fin 1024) (d : Fin 64) (r : Fin 8192) (hr : r.val = 1024 * (i 0).val + p.val) :
    out0_A_3 c i a1 h1 a2 h2 a3 h3 a4 h4 x0 x1 x2 (ix2 p d) = G x0 x1 x2 (ix2 r d) := by
  have hi : r.val = k0_off1 i 0 + p.val := by rw [off1_0]; exact hr
  have hT : ∀ k : Fin 8, rowData (proj (rowsAt x0 (k0_off1 i) (k0_off1_inb i)) x1) x2 p d
      (rowsAt x0 (k0_off2 (BitVec.ofNat 32 k.val)) (k0_off2_inb k)) = coeTile (realTile (re x0) (re x1) (re x2) r d k) := fun k =>
    rowData_real x0 x1 x2 hx hx1 hx2 (k0_off1 i) (k0_off1_inb i) (k0_off2 (BitVec.ofNat 32 k.val)) (k0_off2_inb k) p d r k hi
      (off1_1 i) (off2_0 k) (off2_1 k)
  rw [out_eq_flash, flash_row]
  simp only [List.map_cons, List.map_nil]
  have e0 := hT 0; have e1 := hT 1; have e2 := hT 2; have e3 := hT 3
  have e4 := hT 4; have e5 := hT 5; have e6 := hT 6; have e7 := hT 7
  simp only [Fin.val_zero, Fin.val_one] at e0 e1
  rw [show (rowData (proj (rowsAt x0 (k0_off1 i) (k0_off1_inb i)) x1) x2 p d (rowsAt x0 (k0_off2 0#32) (k0_off2_inb 0))) = _ from e0,
    show (rowData (proj (rowsAt x0 (k0_off1 i) (k0_off1_inb i)) x1) x2 p d (rowsAt x0 (k0_off2 1#32) (k0_off2_inb 1))) = _ from e1,
    show (rowData (proj (rowsAt x0 (k0_off1 i) (k0_off1_inb i)) x1) x2 p d (rowsAt x0 (k0_off2 2#32) (k0_off2_inb 2))) = _ from e2,
    show (rowData (proj (rowsAt x0 (k0_off1 i) (k0_off1_inb i)) x1) x2 p d (rowsAt x0 (k0_off2 3#32) (k0_off2_inb 3))) = _ from e3,
    show (rowData (proj (rowsAt x0 (k0_off1 i) (k0_off1_inb i)) x1) x2 p d (rowsAt x0 (k0_off2 4#32) (k0_off2_inb 4))) = _ from e4,
    show (rowData (proj (rowsAt x0 (k0_off1 i) (k0_off1_inb i)) x1) x2 p d (rowsAt x0 (k0_off2 5#32) (k0_off2_inb 5))) = _ from e5,
    show (rowData (proj (rowsAt x0 (k0_off1 i) (k0_off1_inb i)) x1) x2 p d (rowsAt x0 (k0_off2 6#32) (k0_off2_inb 6))) = _ from e6,
    show (rowData (proj (rowsAt x0 (k0_off1 i) (k0_off1_inb i)) x1) x2 p d (rowsAt x0 (k0_off2 7#32) (k0_off2_inb 7))) = _ from e7]
  have hfold := foldl_coeTile
    [realTile (re x0) (re x1) (re x2) r d 0, realTile (re x0) (re x1) (re x2) r d 1, realTile (re x0) (re x1) (re x2) r d 2,
     realTile (re x0) (re x1) (re x2) r d 3, realTile (re x0) (re x1) (re x2) r d 4, realTile (re x0) (re x1) (re x2) r d 5,
     realTile (re x0) (re x1) (re x2) r d 6, realTile (re x0) (re x1) (re x2) r d 7] (⊥, 0, 0)
  simp only [List.map_cons, List.map_nil] at hfold
  rw [hfold, Cert.OnlineSoftmax.online_avg (by norm_num : 0 < 1024), Cert.Attention.G_ix2]
  obtain ⟨hS, hA⟩ := sums_eight (realTile (re x0) (re x1) (re x2) r d)
  rw [hS, hA]
  unfold attn
  rw [Cert.OnlineSoftmax.sum_tiles (fun j => Real.exp (logit (re x0) (re x1) (re x2) r j) * re x0 j d),
    Cert.OnlineSoftmax.sum_tiles (fun j => Real.exp (logit (re x0) (re x1) (re x2) r j))]
  rfl

end Cert.KernelIdeal.Result

end
-- ==== Proof.KernelArray.lean ====
/-
  From the blocks the grid points write to the kernel's whole result array.

  The three input windows hold their whole arrays at every grid point (their block index never moves), and grid point `t`
  writes its `1024 × 64` block at rows `1024 · t … 1024 · t + 1023` of the result.  Each written block is the block of the
  attention output `G` (the entry-by-entry statement of the module before this one), and the eight blocks cover the
  `8192` rows: row `r` lies in the block of point `r / 1024`.  So after the run the result array is `G` of the arguments.
-/
import proofs.«161730_j65481071402025_2_alg».proof.Proof.KernelValue

set_option synthInstance.maxSize 4096
set_option maxRecDepth 65536

noncomputable section

open Idealize.ShloMosaic Idealize.ShloMosaic.TcCoe Idealize.SL.Sem Idealize.ShloMosaic.ValueIdx
open Idealize.ShloMosaic.Pipeline (Dat)

namespace Cert.KernelIdeal.Result

open Cert.KernelIdeal Cert.KernelIdeal.Gen
open Cert.Attention (re IsReal G)

variable (m : (ℓ : Loc nD τ sig) → Buf (Elt Ideal) ℓ) (ρ : Dev nD → PrngReg)

/-- The printed index maps over the grid: the inputs' blocks stay at the origin, the output's block of point `t` is
    block `(t, 0)`, and the point's one coordinate is `t`. -/
theorem index_facts : ∀ t : Fin cfg0.N, win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ (grid0.coords t 0).val = t.val :=
  (by decide +kernel : ∀ t : Fin grid0.N, _)

theorem point_lt (t : Fin cfg0.N) : t.val < 8 := Nat.lt_of_lt_of_eq t.isLt N_0

/-- Input window 0's block is the whole of `x`. -/
theorem iblk0_eq (c : Dev nD) (t : Fin cfg0.N) :
    (iblk m c 0 t : Vec Ideal S8192x64 .f32) = m ((c : Thread nD τ).loc main_arg0) := by
  obtain ⟨e0, e1, -⟩ := index_facts t
  funext j
  unfold iblk
  rw [View.read_apply]
  show V m c main_arg0 _ = m (c.tc.loc main_arg0) j
  unfold V
  congr 1
  funext a
  apply Fin.ext
  match a with
  | ⟨0, _⟩ => show win0_0.index t (0 : Fin 2) * 8192 + 1 * (j 0).val = (j 0).val; rw [e0]; omega
  | ⟨1, _⟩ => show win0_0.index t (1 : Fin 2) * 64 + 1 * (j 1).val = (j 1).val; rw [e1]; omega

/-- Input window 1's block is the whole of the query weights. -/
theorem iblk1_eq (c : Dev nD) (t : Fin cfg0.N) :
    (iblk m c 1 t : Vec Ideal S64x64 .f32) = m ((c : Thread nD τ).loc main_arg1) := by
  obtain ⟨-, -, e0, e1, -⟩ := index_facts t
  funext j
  unfold iblk
  rw [View.read_apply]
  show V m c main_arg1 _ = m (c.tc.loc main_arg1) j
  unfold V
  congr 1
  funext a
  apply Fin.ext
  match a with
  | ⟨0, _⟩ => show win0_1.index t (0 : Fin 2) * 64 + 1 * (j 0).val = (j 0).val; rw [e0]; omega
  | ⟨1, _⟩ => show win0_1.index t (1 : Fin 2) * 64 + 1 * (j 1).val = (j 1).val; rw [e1]; omega

/-- Input window 2's block is the whole of the key weights. -/
theorem iblk2_eq (c : Dev nD) (t : Fin cfg0.N) :
    (iblk m c 2 t : Vec Ideal S64x64 .f32) = m ((c : Thread nD τ).loc main_arg2) := by
  obtain ⟨-, -, -, -, e0, e1, -⟩ := index_facts t
  funext j
  unfold iblk
  rw [View.read_apply]
  show V m c main_arg2 _ = m (c.tc.loc main_arg2) j
  unfold V
  congr 1
  funext a
  apply Fin.ext
  match a with
  | ⟨0, _⟩ => show win0_2.index t (0 : Fin 2) * 64 + 1 * (j 0).val = (j 0).val; rw [e0]; omega
  | ⟨1, _⟩ => show win0_2.index t (1 : Fin 2) * 64 + 1 * (j 1).val = (j 1).val; rw [e1]; omega

/-- WHAT POINT `t` WRITES BACK is block `t` of the attention output of the argument arrays. -/
theorem flushed_eq (c : Dev nD) (t : Fin cfg0.N)
    (hx : IsReal (m ((c : Thread nD τ).loc main_arg0))) (h1 : IsReal (m ((c : Thread nD τ).loc main_arg1)))
    (h2 : IsReal (m ((c : Thread nD τ).loc main_arg2))) :
    (dats m 0 c).flushed 3 t = ((cfg0.win 3).blk t).view.read (Elt Ideal)
      (G (m ((c : Thread nD τ).loc main_arg0)) (m ((c : Thread nD τ).loc main_arg1)) (m ((c : Thread nD τ).loc main_arg2))) := by
  obtain ⟨-, -, -, -, -, -, e3, e3', ec⟩ := index_facts t
  have ht := point_lt t
  rw [Cert.KernelIdeal.Value.flushed3_A]
  funext y
  obtain ⟨p, d, rfl⟩ : ∃ (p : Fin 1024) (d : Fin 64), y = ix2 p d := ⟨y 0, y 1, eq_ix2 y⟩
  rw [View.read_apply]
  show out0_A_3 c (grid0.coords t) (ms0_0 t) (hs0_0 t) (ms0_1 t) (hs0_1 t) (ms0_2 t) (hs0_2 t) (ms0_3 t) (hs0_3 t)
      (iblk m c 0 t) (iblk m c 1 t) (iblk m c 2 t) (ix2 p d) = G _ _ _ (((cfg0.win 3).blk t).view.emb (ix2 p d))
  rw [iblk0_eq, iblk1_eq, iblk2_eq]
  have hr : ((cfg0.win 3).blk t).view.emb (ix2 p d) = ix2 (⟨1024 * t.val + p.val, by omega⟩ : Fin 8192) d := by
    funext a
    apply Fin.ext
    match a with
    | ⟨0, _⟩ => show win0_3.index t (0 : Fin 2) * 1024 + 1 * p.val = 1024 * t.val + p.val; rw [e3]; omega
    | ⟨1, _⟩ => show win0_3.index t (1 : Fin 2) * 64 + 1 * d.val = d.val; rw [e3']; omega
  rw [hr]
  exact out_apply c (grid0.coords t) _ _ _ _ _ _ _ _ _ _ _ hx h1 h2 p d _ (by show 1024 * t.val + p.val = _; rw [ec])

/-- An index of the result array is in point `t`'s block iff each coordinate is in the block's range on its axis. -/
theorem mem_blk (t : Fin cfg0.N) (i : S8192x64.Idx) :
    i ∈ ((cfg0.win 3).blk t).view.set ↔ ∀ a : Fin 2, win0_3.index t a * S1024x64.size a ≤ (i a).val
      ∧ (i a).val < win0_3.index t a * S1024x64.size a + S1024x64.size a := by
  show i ∈ ((View.whole main_v0).slice (win0_3.rect t)).set ↔ _
  rw [View.set_slice_whole, Rect.mem_set_unit]
  exact Iff.rfl

/-- THE RESULT ARRAY after the run is the attention output of the argument arrays. -/
theorem final (c : Dev nD)
    (hx : IsReal (m ((c : Thread nD τ).loc main_arg0))) (h1 : IsReal (m ((c : Thread nD τ).loc main_arg1)))
    (h2 : IsReal (m ((c : Thread nD τ).loc main_arg2))) :
    (dats m 0 c).arrAt 3 cfg0.N
      = G (m ((c : Thread nD τ).loc main_arg0)) (m ((c : Thread nD τ).loc main_arg1)) (m ((c : Thread nD τ).loc main_arg2)) :=
  (dats m 0 c).arrAt_eq_of_cover 3 _ (fun t _ => flushed_eq m c t hx h1 h2) fun i => by
    have hi0 : (i 0).val < 8192 := (i 0).isLt
    have hi1 : (i 1).val < 64 := (i 1).isLt
    obtain ⟨t, ht⟩ : ∃ t : Fin cfg0.N, t.val = (i 0).val / 1024 :=
      ⟨⟨(i 0).val / 1024, by rw [show cfg0.N = 8 from N_0]; omega⟩, rfl⟩
    obtain ⟨-, -, -, -, -, -, e3, e3', -⟩ := index_facts t
    refine ⟨t, flush0_3 t, ?_⟩
    rw [mem_blk]
    intro a
    match a with
    | ⟨0, _⟩ =>
      show win0_3.index t (0 : Fin 2) * 1024 ≤ (i 0).val ∧ (i 0).val < win0_3.index t (0 : Fin 2) * 1024 + 1024
      rw [e3, ht]; omega
    | ⟨1, _⟩ =>
      show win0_3.index t (1 : Fin 2) * 64 ≤ (i 1).val ∧ (i 1).val < win0_3.index t (1 : Fin 2) * 64 + 64
      rw [e3']; omega

/-- The run, read: the result array at the attention output of the arguments, the arguments unchanged. -/
theorem run (hx : ∀ c : Dev nD, IsReal (m ((c : Thread nD τ).loc main_arg0)))
    (h1 : ∀ c : Dev nD, IsReal (m ((c : Thread nD τ).loc main_arg1)))
    (h2 : ∀ c : Dev nD, IsReal (m ((c : Thread nD τ).loc main_arg2))) :
    θ_run defs (onTc (τ := τ) (main (F := Ideal))) ⟨m, fun _ => 0, ρ⟩ fun r => ∀ c : Dev nD,
      r.2.mem ((c : Thread nD τ).loc main_v0)
        = G (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c (hx c) (h1 c) (h2 c)), (h c).2⟩)
    (Cert.KernelIdeal.Value.run_blocks m ρ)

end Cert.KernelIdeal.Result

end
-- ==== Proof.RefValue.lean ====
/-
  The reference's result array is the attention output `G` of the argument arrays, when every argument entry is finite.

  Stage by stage at the ideal values: the two projections and the scores are injections of the real projections and
  scores (the scale `1 / sqrt 64` is one eighth); the maximum of a row of scores, taken from `-∞` and then once more
  against `-∞`, is some real `μ`; the weights are `e^{ℓ i j - μ}`, the normaliser `0 + ∑ j, e^{ℓ i j - μ}`; and the
  result is `∑ j, (weight / normaliser) · x j d`, which is the softmax-weighted average whatever `μ` is.
-/
import proofs.«161730_j65481071402025_2_alg».proof.Proof.Gen.ReferenceIdeal.Read
import proofs.«161730_j65481071402025_2_alg».proof.Proof.OnlineSoftmax
import proofs.«161730_j65481071402025_2_alg».proof.Proof.Spec
import proofs.«161730_j65481071402025_2_alg».proof.Proof.Consts
import Idealize.ShloMosaic.PureOps.Ideal.Laws

noncomputable section

open Idealize.ShloMosaic Idealize.ShloMosaic.ValueIdx

namespace Cert.ReferenceIdeal.RefValue

open Cert.ReferenceIdeal Cert.ReferenceIdeal.Gen Cert.ReferenceIdeal.Read
open Cert.Attention (re IsReal G logit attn)
open Cert.OnlineSoftmax (coe_sum)

variable (x0 : Vec Ideal S8192x64 .f32) (x1 x2 : Vec Ideal S64x64 .f32)

/-! ## The composed index functions of the generated reading, at explicit coordinates -/

theorem l0 (r : Fin 8192) (e k : Fin 64) : lidx_main_v0 (ix2 r e) k = ix2 r k :=
  funext fun a => Fin.ext (by match a with | ⟨0, _⟩ => rfl | ⟨1, _⟩ => rfl)
theorem r0 (r : Fin 8192) (e k : Fin 64) : ridx_main_v0 (ix2 r e) k = ix2 k e :=
  funext fun a => Fin.ext (by match a with | ⟨0, _⟩ => rfl | ⟨1, _⟩ => rfl)
theorem l1 (r : Fin 8192) (e k : Fin 64) : lidx_main_v1 (ix2 r e) k = ix2 r k :=
  funext fun a => Fin.ext (by match a with | ⟨0, _⟩ => rfl | ⟨1, _⟩ => rfl)
theorem r1 (r : Fin 8192) (e k : Fin 64) : ridx_main_v1 (ix2 r e) k = ix2 k e :=
  funext fun a => Fin.ext (by match a with | ⟨0, _⟩ => rfl | ⟨1, _⟩ => rfl)
theorem i4 (e : Fin 64) (j : Fin 8192) : idx_main_v4 (ix2 e j) = ix2 j e :=
  funext fun a => Fin.ext (by match a with | ⟨0, _⟩ => rfl | ⟨1, _⟩ => rfl)
theorem l5 (r j : Fin 8192) (k : Fin 64) : lidx_main_v5 (ix2 r j) k = ix2 r k :=
  funext fun a => Fin.ext (by match a with | ⟨0, _⟩ => rfl | ⟨1, _⟩ => rfl)
theorem r5 (r j : Fin 8192) (k : Fin 64) : ridx_main_v5 (ix2 r j) k = ix2 k j :=
  funext fun a => Fin.ext (by match a with | ⟨0, _⟩ => rfl | ⟨1, _⟩ => rfl)
theorem i12 (r j : Fin 8192) : idx_main_v11 (idx_main_v12 (ix2 r j)) = ix1 r :=
  funext fun a => Fin.ext (by match a with | ⟨0, _⟩ => rfl)
theorem i17 (r j : Fin 8192) : idx_main_v16 (idx_main_v17 (ix2 r j)) = ix1 r :=
  funext fun a => Fin.ext (by match a with | ⟨0, _⟩ => rfl)
theorem i15 (r k : Fin 8192) : idx_main_v15 (ix1 r) k = ix2 r k :=
  funext fun a => Fin.ext (by match a with | ⟨0, _⟩ => rfl | ⟨1, _⟩ => rfl)
theorem l19 (r k : Fin 8192) (d : Fin 64) : lidx_main_v19 (ix2 r d) k = ix2 r k :=
  funext fun a => Fin.ext (by match a with | ⟨0, _⟩ => rfl | ⟨1, _⟩ => rfl)
theorem r19 (r k : Fin 8192) (d : Fin 64) : ridx_main_v19 (ix2 r d) k = ix2 k d :=
  funext fun a => Fin.ext (by match a with | ⟨0, _⟩ => rfl | ⟨1, _⟩ => rfl)

/-! ## The stages, in reals -/

/-- The query projection. -/
theorem v0_real (hx : IsReal x0) (h1 : IsReal x1) (r : Fin 8192) (e : Fin 64) :
    val_main_v0 (F := Ideal) x0 x1 (ix2 r e) = ((Cert.Attention.proj (re x0) (re x1) r e : ℝ) : EReal) := by
  rw [val_main_v0_apply]
  unfold Cert.Attention.proj
  rw [coe_sum]
  refine Finset.sum_congr rfl fun k _ => ?_
  rw [l0, r0, hx r k, h1 k e, EReal.coe_mul]

/-- The key projection. -/
theorem v1_real (hx : IsReal x0) (h2 : IsReal x2) (j : Fin 8192) (e : Fin 64) :
    val_main_v1 (F := Ideal) x0 x2 (ix2 j e) = ((Cert.Attention.proj (re x0) (re x2) j e : ℝ) : EReal) := by
  rw [val_main_v1_apply]
  unfold Cert.Attention.proj
  rw [coe_sum]
  refine Finset.sum_congr rfl fun k _ => ?_
  rw [l1, r1, hx j k, h2 k e, EReal.coe_mul]

/-- The scale, one over the square root of sixty-four, is one eighth. -/
theorem v6_val (i : S8192x8192.Idx) : val_main_v6 (F := Ideal) i = ((1 / 8 : ℝ) : EReal) := by
  rw [val_main_v6_apply, val_main_v3_apply, val_main_cst_0_apply, val_main_v2_apply, val_main_cst_apply]
  show Ideal.div (Ideal.ofBits .f32 0x3F800000#32) (Ideal.sqrt (Ideal.ofBits .f32 0x42800000#32)) = _
  rw [Cert.Consts.ofBits_one, Cert.Consts.ofBits_64, Cert.Consts.one_div_sqrt_64]

/-- The scores. -/
theorem v7_real (hx : IsReal x0) (h1 : IsReal x1) (h2 : IsReal x2) (r j : Fin 8192) :
    val_main_v7 (F := Ideal) x0 x1 x2 (ix2 r j) = ((logit (re x0) (re x1) (re x2) r j : ℝ) : EReal) := by
  rw [val_main_v7_apply, val_main_v5_apply, v6_val]
  show (∑ k : Fin 64, _) * ((1 / 8 : ℝ) : EReal) = _
  unfold logit
  rw [EReal.coe_mul, coe_sum]
  refine congrArg (· * ((1 / 8 : ℝ) : EReal)) (Finset.sum_congr rfl fun k _ => ?_)
  rw [l5, r5, val_main_v4_apply, i4, v0_real x0 x1 hx h1, v1_real x0 x2 hx h2, EReal.coe_mul]

/-- Row `r` of the scores with column `k` put back. -/
theorem lift_row (h : S8192x8192.Reduces [1] S8192) (r : Fin 8192) (k : Fin (S8192x8192.size 1)) :
    h.lift (ix1 r) k = ix2 r (⟨k.val, k.isLt⟩ : Fin 8192) := by
  funext c
  apply Fin.ext
  rw [h.lift_val]
  match c with
  | ⟨0, _⟩ => rfl
  | ⟨1, _⟩ => rfl

/-- The maximum of a row of scores, from `-∞` and against `-∞` once more, is a real. -/
theorem v10_real (hx : IsReal x0) (h1 : IsReal x1) (h2 : IsReal x2) (r : Fin 8192) :
    ∃ μ : ℝ, val_main_v10 (F := Ideal) x0 x1 x2 (ix1 r) = (μ : EReal) := by
  have hR : S8192x8192.Reduces [1] S8192 := by decide
  obtain ⟨μ, hμ⟩ := Cert.OnlineSoftmax.fold_max_real (T := 8192) (by norm_num) (fun k => logit (re x0) (re x1) (re x2) r k)
  refine ⟨μ, ?_⟩
  have h8 := Host.reduce_eq_fold_single (FloatOps.maximumf (F := Ideal) (φ := .f32))
    (val_main_v7 (F := Ideal) x0 x1 x2 : S8192x8192.Idx → Ideal .f32) (val_main_cst_1 (F := Ideal) : S_.Idx → Ideal .f32)
    reducesTo_S8192x8192_S8192_d1 hR h_S_ (ix1 r)
  have hf : (val_main_v7 (F := Ideal) x0 x1 x2 ∘ hR.lift (ix1 r))
      = fun k : Fin 8192 => ((logit (re x0) (re x1) (re x2) r k : ℝ) : EReal) := by
    funext k
    show val_main_v7 (F := Ideal) x0 x1 x2 (hR.lift (ix1 r) k) = _
    rw [lift_row hR r k]
    exact v7_real x0 x1 x2 hx h1 h2 r _
  rw [val_main_v10_apply, val_main_v9_apply, val_main_cst_2_apply]
  unfold val_main_v8
  rw [h8]
  show max (Ideal.ofBits .f32 0xFF800000#32) ((Finset.univ : Finset (Fin 8192)).fold max (Ideal.ofBits .f32 0xFF800000#32)
    (val_main_v7 (F := Ideal) x0 x1 x2 ∘ hR.lift (ix1 r))) = _
  rw [hf, Cert.Consts.ofBits_neg_inf]
  exact (congrArg (max (⊥ : EReal)) hμ).trans (max_bot_left _)

/-- The weights. -/
theorem v14_real (hx : IsReal x0) (h1 : IsReal x1) (h2 : IsReal x2) (r j : Fin 8192) (μ : ℝ)
    (hμ : val_main_v10 (F := Ideal) x0 x1 x2 (ix1 r) = (μ : EReal)) :
    val_main_v14 (F := Ideal) x0 x1 x2 (ix2 r j)
      = Ideal.exp (((logit (re x0) (re x1) (re x2) r j : ℝ) : EReal) - (μ : EReal)) := by
  rw [val_main_v14_apply, val_main_v13_apply, val_main_v12_apply, val_main_v11_apply, v7_real x0 x1 x2 hx h1 h2, i12, hμ]
  rfl

/-- The normaliser. -/
theorem v17_real (hx : IsReal x0) (h1 : IsReal x1) (h2 : IsReal x2) (r j : Fin 8192) (μ : ℝ)
    (hμ : val_main_v10 (F := Ideal) x0 x1 x2 (ix1 r) = (μ : EReal)) :
    val_main_v17 (F := Ideal) x0 x1 x2 (ix2 r j)
      = (0 : EReal) + ∑ k : Fin 8192, Ideal.exp (((logit (re x0) (re x1) (re x2) r k : ℝ) : EReal) - (μ : EReal)) := by
  rw [val_main_v17_apply, val_main_v16_apply, i17, val_main_v15_apply, val_main_cst_3_apply]
  show Ideal.ofBits .f32 0x00000000#32 + _ = _
  rw [Ideal.ofBits_zero_f32]
  refine congrArg ((0 : EReal) + ·) (Finset.sum_congr rfl fun k _ => ?_)
  rw [i15, v14_real x0 x1 x2 hx h1 h2 r k μ hμ]

/-- THE REFERENCE'S RESULT is the attention output of its arguments. -/
theorem result_eq (hx : IsReal x0) (h1 : IsReal x1) (h2 : IsReal x2) :
    val_main_v19 (F := Ideal) x0 x1 x2 = G x0 x1 x2 := by
  funext i
  obtain ⟨r, d, rfl⟩ : ∃ (r : Fin 8192) (d : Fin 64), i = ix2 r d := ⟨i 0, i 1, eq_ix2 i⟩
  obtain ⟨μ, hμ⟩ := v10_real x0 x1 x2 hx h1 h2 r
  rw [val_main_v19_apply, Cert.Attention.G_ix2]
  unfold attn
  rw [← Cert.OnlineSoftmax.softmax_avg (by norm_num : 0 < 8192) (fun j => logit (re x0) (re x1) (re x2) r j)
    (fun j => re x0 j d) μ]
  refine Finset.sum_congr rfl fun k _ => ?_
  rw [l19, r19, val_main_v18_apply, v14_real x0 x1 x2 hx h1 h2 r k μ hμ, v17_real x0 x1 x2 hx h1 h2 r k μ hμ, hx k d]
  rfl

end Cert.ReferenceIdeal.RefValue

end
-- ==== Proof.Finite.lean ====
/-
  What the precondition gives: every entry of the three argument arrays is a real number.

  The precondition is the conjunction, over the three arrays, of "every entry's absolute value is below `+∞`".  On the
  extended reals `|x| = max x (-x)`, which is `+∞` exactly at the two infinities; so each entry is the injection of its
  own real part.
-/
import proofs.«161730_j65481071402025_2_alg».proof.Pre_finite_inputs
import proofs.«161730_j65481071402025_2_alg».proof.Proof.Spec
import Idealize.ShloMosaic.Lib.ReduceAll
import Idealize.ShloMosaic.Lib.Affine
import Idealize.ShloMosaic.Lib.ValueIdx
import Idealize.ShloMosaic.Lib.Pipeline.Value
import Idealize.ShloMosaic.PureOps.Ideal.Laws

noncomputable section

open Idealize.ShloMosaic Idealize.ShloMosaic.ValueIdx

namespace Cert.Pre_finite_inputs.Finite

open Cert.Pre_finite_inputs
open Cert.Attention (re IsReal)

variable [Facts]
open Facts

instance : Subsingleton S_.Idx := ⟨fun a b => funext fun d => d.elim0⟩

/-- The word of `+inf` denotes the top of the extended reals. -/
theorem ofBits_inf : Ideal.ofBits .f32 0x7F800000#32 = (⊤ : EReal) := by
  simp [Ideal.ofBits, Ideal.ieee]

/-- An extended real whose absolute value is below `+∞` is the injection of its real part. -/
theorem real_of_abs_lt (x : EReal) (h : Ideal.cmp .olt (max x (-x)) ⊤ = 1#1) : x = ((x.toReal : ℝ) : EReal) := by
  induction x using EReal.rec with
  | bot => simp [Ideal.cmp] at h
  | coe r => simp
  | top => simp [Ideal.cmp] at h

/-- One array: if the reduction by `and` of "the entry's absolute value is below `+∞`" is one, every entry is real. -/
theorem entry_real {s : Shape} {axes : List (Fin s.rank)} (x : FVec Ideal s .f32)
    (hb : S_.BroadcastsInDim s (![] : Fin 0 → Fin s.rank)) (hR : s.ReducesTo axes S_) (hu : 0 < S_.numel)
    (e : Host.reduce IntOp.andi (cmpf .olt (Host.absf x) (broadcastInDim s ![] hb (constant (F := Ideal) S_ .f32 0x7F800000#32)))
      (constantI S_ 1 1#1) hR hu ix0 = 1#1) (i : s.Idx) : x i = (((x i).toReal : ℝ) : EReal) := by
  have hi := Host.reduce_andi_all _ _ hR hu ix0 e i
  have hbv : broadcastInDim s ![] hb (constant (F := Ideal) S_ .f32 0x7F800000#32) i = Ideal.ofBits .f32 0x7F800000#32 :=
    broadcastInDim_apply _ hb (constant (F := Ideal) S_ .f32 0x7F800000#32) i ix0 (fun a => a.elim0)
  have hc : Ideal.cmp .olt (max (x i) (-(x i)))
      (broadcastInDim s ![] hb (constant (F := Ideal) S_ .f32 0x7F800000#32) i) = 1#1 := hi
  rw [hbv, ofBits_inf] at hc
  exact real_of_abs_lt (x i) hc

/-- The precondition gives finiteness of all three arrays. -/
theorem real_of_pre (x0 : FVec Ideal S8192x64 .f32) (x1 x2 : FVec Ideal S64x64 .f32)
    (h : fn (F := Ideal) x0 x1 x2 = fun _ => 1#1) : IsReal x0 ∧ IsReal x1 ∧ IsReal x2 := by
  have h0 := congrFun h ix0
  dsimp only [fn] at h0
  have h0' : IntOp.andi (IntOp.andi _ _) _ = 1#1 := h0
  obtain ⟨h01, h2⟩ := IntOp.andi_eq_one.mp h0'
  obtain ⟨h0a, h1a⟩ := IntOp.andi_eq_one.mp h01
  exact ⟨fun i j => entry_real x0 _ _ _ h0a (ix2 i j), fun i j => entry_real x1 _ _ _ h1a (ix2 i j),
    fun i j => entry_real x2 _ _ _ h2 (ix2 i j)⟩

end Cert.Pre_finite_inputs.Finite

end
-- ==== Proof.lean ====
/-
  A tiled self-attention kernel against its plain reference, equal as extended reals when every input is finite.

  Both programs take `x` (`8192 × 64`) and two `64 × 64` weight matrices, form queries `Q = x · W₁` and keys `K = x · W₂`,
  score query row `i` against key row `j` by `ℓ i j = (Q i · K j) / 8`, and return at `(i, d)` the softmax-weighted
  average `(∑ j, e^{ℓ i j} · x j d) / ∑ j, e^{ℓ i j}` of column `d` of `x`.

  The reference takes one maximum per row, the weights `e^{ℓ i j - max}`, divides each by their sum and multiplies by `x`.
  The kernel handles 1024 query rows per grid point and walks the keys in eight tiles of 1024, keeping a running maximum,
  a running normaliser and a running weighted sum, and rescaling the two sums by `e^{old max - new max}` whenever the maximum
  moves; it divides once at the end.  With finite inputs every score is a real, both maxima are reals, and the shift by
  the maximum cancels between numerator and denominator, so both programs compute the same real number; the scale
  `1 / sqrt 64` of the reference is the kernel's one eighth.  Finiteness is needed: the rescaling and the final division
  distribute products over sums, which the extended reals do not allow at the infinities.

  The idealization rewrote nothing, so it is preserved trivially; the three programs' runs (termination, no fault,
  arguments unchanged) are the generated frame runs and the reference's generated run.
-/
import proofs.«161730_j65481071402025_2_alg».proof.Defs
import proofs.«161730_j65481071402025_2_alg».proof.Proof.Gen.Kernel
import proofs.«161730_j65481071402025_2_alg».proof.Proof.Gen.Kernel.Skeleton
import proofs.«161730_j65481071402025_2_alg».proof.Proof.Gen.Kernel.Launch
import proofs.«161730_j65481071402025_2_alg».proof.Proof.Gen.Kernel.Points
import proofs.«161730_j65481071402025_2_alg».proof.Proof.Gen.Kernel.Frame
import proofs.«161730_j65481071402025_2_alg».proof.Proof.Gen.KernelIdeal
import proofs.«161730_j65481071402025_2_alg».proof.Proof.Gen.KernelIdeal.Skeleton
import proofs.«161730_j65481071402025_2_alg».proof.Proof.Gen.KernelIdeal.Launch
import proofs.«161730_j65481071402025_2_alg».proof.Proof.Gen.KernelIdeal.Points
import proofs.«161730_j65481071402025_2_alg».proof.Proof.Gen.KernelIdeal.Frame
import proofs.«161730_j65481071402025_2_alg».proof.Proof.Gen.ReferenceIdeal
import proofs.«161730_j65481071402025_2_alg».proof.Proof.Gen.Pre_finite_inputs
import proofs.«161730_j65481071402025_2_alg».proof.Proof.Gen.KernelIdeal.Value
import proofs.«161730_j65481071402025_2_alg».proof.Proof.Gen.ReferenceIdeal.Run
import proofs.«161730_j65481071402025_2_alg».proof.Proof.Gen.ReferenceIdeal.Read
import proofs.«161730_j65481071402025_2_alg».proof.Proof.KernelArray
import proofs.«161730_j65481071402025_2_alg».proof.Proof.RefValue
import proofs.«161730_j65481071402025_2_alg».proof.Proof.Finite
import Idealize.ShloMosaic.Adequacy
import Idealize.ShloMosaic.Init

noncomputable section

namespace Cert.Proof

open Idealize.ShloMosaic Idealize.ShloMosaic.TcCoe Idealize.SL.Sem
open Cert.Attention (IsReal G)

/-- The kernel as printed runs and leaves its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- So does the reference: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- With finite inputs both runs end with the attention output of the (agreeing) argument arrays. -/
theorem algebraic : Cert.algebraic_KernelIdeal_ReferenceIdeal := by
  intro m ρ m' ρ' hpre hagree
  have hfin : ∀ c : Dev Cert.KernelIdeal.nD,
      IsReal (m ((c.tc : Thread Cert.KernelIdeal.nD Cert.KernelIdeal.τ).loc Cert.KernelIdeal.main_arg0))
      ∧ IsReal (m ((c.tc : Thread Cert.KernelIdeal.nD Cert.KernelIdeal.τ).loc Cert.KernelIdeal.main_arg1))
      ∧ IsReal (m ((c.tc : Thread Cert.KernelIdeal.nD Cert.KernelIdeal.τ).loc Cert.KernelIdeal.main_arg2)) := fun c =>
    Cert.Pre_finite_inputs.Finite.real_of_pre _ _ _ (hpre c)
  refine ⟨fun c => G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Result.run m ρ (fun c => (hfin c).1) (fun c => (hfin c).2.1) (fun c => (hfin c).2.2), ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2]
  exact (Cert.ReferenceIdeal.Read.val_main_v19_eq _ _ _).trans
    (Cert.ReferenceIdeal.RefValue.result_eq _ _ _ (hfin c).1 (hfin c).2.1 (hfin c).2.2)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
